-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x1 : Shape := ⟨2, ![2097152, 1]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S2097152x1 : S_.BroadcastsInDim S2097152x1 (![] : Fin 0 → Fin S2097152x1.rank)
  reducesTo_S2097152x1_S_d0_1 : S2097152x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S1 .f32) (main_arg19 : FVec F S1 .f32) (main_v83 : IVec S_ 1) (main_v84 : FVec F S16x1 .f32) (main_cst_32 : FVec F S_ .f32) : IVec S_ 1 :=
  let main_v85 : FVec F S16x1 .f32 := broadcastInDim S16x1 ![] bcast_S_S16x1 main_cst_32
  let main_v86 : IVec S16x1 1 := cmpf .olt main_v84 main_v85
  let main_c_33 : IVec S_ 1 := constantI S_ 1 1#1
  let main_v87 : IVec S_ 1 := (fun x v => Host.reduce IntOp.andi x v reducesTo_S16x1_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg14 : FVec F S16 .f32) (main_arg15 : FVec F S16x16 .f32) (main_arg16 : FVec F S16 .f32) (main_arg17 : FVec F S16x1 .f32) (main_arg18 : FVec F S1 .f32) (main_arg19 : FVec F S1 .f32) (main_v63 : IVec S_ 1) (main_v67 : IVec S_ 1) : IVec S_ 1 :=
  let main_v68 : IVec S_ 1 := andi main_v63 main_v67
  let main_v69 : FVec F S16 .f32 := Host.absf main_arg14
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S16x16 .f32 := Host.absf main_arg15
  let main_cst_28 : FVec F S_ .f32 := constant S_ .f32 0x7F800000#32
  let main_v75 : FVec F S16x16 .f32 := broadcastInDim S16x16 ![] bcast_S_S16x16 main_cst_28
  let main_v76 : IVec S16x16 1 := cmpf .olt main_v74 main_v75
  let main_c_29 : IVec S_ 1 := constantI S_ 1 1#1
  let main_v77 : IVec S_ 1 := (fun x v => Host.reduce IntOp.andi x v reducesTo_S16x16_S_d0_1 h_S_) main_v76 main_c_29
  let main_v78 : IVec S_ 1 := andi main_v73 main_v77
  let main_v79 : FVec F S16 .f32 := Host.absf main_arg16
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S16x1 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S16x16 .f32) (main_arg12 : FVec F S16 .f32) (main_arg13 : FVec F S16x16 .f32) (main_arg14 : FVec F S16 .f32) (main_arg15 : FVec F S16x16 .f32) (main_arg16 : FVec F S16 .f32) (main_arg17 : FVec F S16x1 .f32) (main_arg18 : FVec F S1 .f32) (main_arg19 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x16 .f32 := Host.absf main_arg11
  let main_cst_20 : FVec F S_ .f32 := constant S_ .f32 0x7F800000#32
  let main_v55 : FVec F S16x16 .f32 := broadcastInDim S16x16 ![] bcast_S_S16x16 main_cst_20
  let main_v56 : IVec S16x16 1 := cmpf .olt main_v54 main_v55
  let main_c_21 : IVec S_ 1 := constantI S_ 1 1#1
  let main_v57 : IVec S_ 1 := (fun x v => Host.reduce IntOp.andi x v reducesTo_S16x16_S_d0_1 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16x16 .f32 := Host.absf main_arg13
  let main_cst_24 : FVec F S_ .f32 := constant S_ .f32 0x7F800000#32
  let main_v65 : FVec F S16x16 .f32 := broadcastInDim S16x16 ![] bcast_S_S16x16 main_cst_24
  let main_v66 : IVec S16x16 1 := cmpf .olt main_v64 main_v65
  let main_c_25 : IVec S_ 1 := constantI S_ 1 1#1
  let main_v67 : IVec S_ 1 := (fun x v => Host.reduce IntOp.andi x v reducesTo_S16x16_S_d0_1 h_S_) main_v66 main_c_25
  fn_part4 (F := F) main_arg14 main_arg15 main_arg16 main_arg17 main_arg18 main_arg19 main_v63 main_v67

def fn_part2 {F : FTy → Type} [FloatOps F] (main_arg7 : FVec F S16x16 .f32) (main_arg8 : FVec F S16 .f32) (main_arg9 : FVec F S16x16 .f32) (main_arg10 : FVec F S16 .f32) (main_arg11 : FVec F S16x16 .f32) (main_arg12 : FVec F S16 .f32) (main_arg13 : FVec F S16x16 .f32) (main_arg14 : FVec F S16 .f32) (main_arg15 : FVec F S16x16 .f32) (main_arg16 : FVec F S16 .f32) (main_arg17 : FVec F S16x1 .f32) (main_arg18 : FVec F S1 .f32) (main_arg19 : FVec F S1 .f32) (main_v33 : IVec S_ 1) : IVec S_ 1 :=
  let main_v34 : FVec F S16x16 .f32 := Host.absf main_arg7
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x16 .f32 := Host.absf main_arg9
  let main_cst_16 : FVec F S_ .f32 := constant S_ .f32 0x7F800000#32
  let main_v45 : FVec F S16x16 .f32 := broadcastInDim S16x16 ![] bcast_S_S16x16 main_cst_16
  let main_v46 : IVec S16x16 1 := cmpf .olt main_v44 main_v45
  let main_c_17 : IVec S_ 1 := constantI S_ 1 1#1
  let main_v47 : IVec S_ 1 := (fun x v => Host.reduce IntOp.andi x v reducesTo_S16x16_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S16 .f32) (main_arg5 : FVec F S16x16 .f32) (main_arg6 : FVec F S16 .f32) (main_arg7 : FVec F S16x16 .f32) (main_arg8 : FVec F S16 .f32) (main_arg9 : FVec F S16x16 .f32) (main_arg10 : FVec F S16 .f32) (main_arg11 : FVec F S16x16 .f32) (main_arg12 : FVec F S16 .f32) (main_arg13 : FVec F S16x16 .f32) (main_arg14 : FVec F S16 .f32) (main_arg15 : FVec F S16x16 .f32) (main_arg16 : FVec F S16 .f32) (main_arg17 : FVec F S16x1 .f32) (main_arg18 : FVec F S1 .f32) (main_arg19 : FVec F S1 .f32) (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S2097152x1 .f32) (main_arg1 : FVec F S2097152x1 .f32) (main_arg2 : FVec F S1x16 .f32) (main_arg3 : FVec F S1x16 .f32) (main_arg4 : FVec F S16 .f32) (main_arg5 : FVec F S16x16 .f32) (main_arg6 : FVec F S16 .f32) (main_arg7 : FVec F S16x16 .f32) (main_arg8 : FVec F S16 .f32) (main_arg9 : FVec F S16x16 .f32) (main_arg10 : FVec F S16 .f32) (main_arg11 : FVec F S16x16 .f32) (main_arg12 : FVec F S16 .f32) (main_arg13 : FVec F S16x16 .f32) (main_arg14 : FVec F S16 .f32) (main_arg15 : FVec F S16x16 .f32) (main_arg16 : FVec F S16 .f32) (main_arg17 : FVec F S16x1 .f32) (main_arg18 : FVec F S1 .f32) (main_arg19 : FVec F S1 .f32) : IVec S_ 1 :=
  let main_v0 : FVec F S2097152x1 .f32 := Host.absf main_arg0
  let main_cst : FVec F S_ .f32 := constant S_ .f32 0x7F800000#32
  let main_v1 : FVec F S2097152x1 .f32 := broadcastInDim S2097152x1 ![] bcast_S_S2097152x1 main_cst
  let main_v2 : IVec S2097152x1 1 := cmpf .olt main_v0 main_v1
  let main_c : IVec S_ 1 := constantI S_ 1 1#1
  let main_v3 : IVec S_ 1 := (fun x v => Host.reduce IntOp.andi x v reducesTo_S2097152x1_S_d0_1 h_S_) main_v2 main_c
  let main_v4 : FVec F S2097152x1 .f32 := Host.absf main_arg1
  let main_cst_0 : FVec F S_ .f32 := constant S_ .f32 0x7F800000#32
  let main_v5 : FVec F S2097152x1 .f32 := broadcastInDim S2097152x1 ![] bcast_S_S2097152x1 main_cst_0
  let main_v6 : IVec S2097152x1 1 := cmpf .olt main_v4 main_v5
  let main_c_1 : IVec S_ 1 := constantI S_ 1 1#1
  let main_v7 : IVec S_ 1 := (fun x v => Host.reduce IntOp.andi x v reducesTo_S2097152x1_S_d0_1 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S1x16 .f32 := Host.absf main_arg3
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S2097152x1 : Shape := ⟨2, ![2097152, 1]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x2097152 : Shape := ⟨2, ![1, 2097152]⟩
abbrev S1x1 : Shape := ⟨2, ![1, 1]⟩
abbrev S1x65536 : Shape := ⟨2, ![1, 65536]⟩
abbrev S16x65536 : Shape := ⟨2, ![16, 65536]⟩

abbrev nBuf : Space → Nat
  | .hbm => 42
  | .vmem => 24
  | .smem => 0
  | _ => 0

abbrev bufTy : (tb : Table) → Fin (tcTables nBuf tb) → BufTy
  | .hbm, ⟨0, _⟩ => ⟨S2097152x1, .f32⟩
  | .hbm, ⟨1, _⟩ => ⟨S2097152x1, .f32⟩
  | .hbm, ⟨2, _⟩ => ⟨S1x16, .f32⟩
  | .hbm, ⟨3, _⟩ => ⟨S1x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16x16, .f32⟩
  | .hbm, ⟨10, _⟩ => ⟨S16, .f32⟩
  | .hbm, ⟨11, _⟩ => ⟨S16x16, .f32⟩
  | .hbm, ⟨12, _⟩ => ⟨S16, .f32⟩
  | .hbm, ⟨13, _⟩ => ⟨S16x16, .f32⟩
  | .hbm, ⟨14, _⟩ => ⟨S16, .f32⟩
  | .hbm, ⟨15, _⟩ => ⟨S16x16, .f32⟩
  | .hbm, ⟨16, _⟩ => ⟨S16, .f32⟩
  | .hbm, ⟨17, _⟩ => ⟨S16x1, .f32⟩
  | .hbm, ⟨18, _⟩ => ⟨S1, .f32⟩
  | .hbm, ⟨19, _⟩ => ⟨S1, .f32⟩
  | .hbm, ⟨20, _⟩ => ⟨S1x2097152, .f32⟩
  | .hbm, ⟨21, _⟩ => ⟨S1x2097152, .f32⟩
  | .hbm, ⟨22, _⟩ => ⟨S16x1, .f32⟩
  | .hbm, ⟨23, _⟩ => ⟨S16x1, .f32⟩
  | .hbm, ⟨24, _⟩ => ⟨S16x1, .f32⟩
  | .hbm, ⟨25, _⟩ => ⟨S16x16, .f32⟩
  | .hbm, ⟨26, _⟩ => ⟨S16x1, .f32⟩
  | .hbm, ⟨27, _⟩ => ⟨S16x16, .f32⟩
  | .hbm, ⟨28, _⟩ => ⟨S16x1, .f32⟩
  | .hbm, ⟨29, _⟩ => ⟨S16x16, .f32⟩
  | .hbm, ⟨30, _⟩ => ⟨S16x1, .f32⟩
  | .hbm, ⟨31, _⟩ => ⟨S16x16, .f32⟩
  | .hbm, ⟨32, _⟩ => ⟨S16x1, .f32⟩
  | .hbm, ⟨33, _⟩ => ⟨S16x16, .f32⟩
  | .hbm, ⟨34, _⟩ => ⟨S16x1, .f32⟩
  | .hbm, ⟨35, _⟩ => ⟨S16x16, .f32⟩
  | .hbm, ⟨36, _⟩ => ⟨S16x1, .f32⟩
  | .hbm, ⟨37, _⟩ => ⟨S1x16, .f32⟩
  | .hbm, ⟨38, _⟩ => ⟨S1x1, .f32⟩
  | .hbm, ⟨39, _⟩ => ⟨S1x1, .f32⟩
  | .hbm, ⟨40, _⟩ => ⟨S1x2097152, .f32⟩
  | .hbm, ⟨41, _⟩ => ⟨S2097152x1, .f32⟩
  | .local _ .vmem, ⟨0, _⟩ => ⟨S1x65536, .f32⟩
  | .local _ .vmem, ⟨1, _⟩ => ⟨S1x65536, .f32⟩
  | .local _ .vmem, ⟨2, _⟩ => ⟨S1x65536, .f32⟩
  | .local _ .vmem, ⟨3, _⟩ => ⟨S1x65536, .f32⟩
  | .local _ .vmem, ⟨4, _⟩ => ⟨S16x1, .f32⟩
  | .local _ .vmem, ⟨5, _⟩ => ⟨S16x1, .f32⟩
  | .local _ .vmem, ⟨6, _⟩ => ⟨S16x1, .f32⟩
  | .local _ .vmem, ⟨7, _⟩ => ⟨S16x16, .f32⟩
  | .local _ .vmem, ⟨8, _⟩ => ⟨S16x1, .f32⟩
  | .local _ .vmem, ⟨9, _⟩ => ⟨S16x16, .f32⟩
  | .local _ .vmem, ⟨10, _⟩ => ⟨S16x1, .f32⟩
  | .local _ .vmem, ⟨11, _⟩ => ⟨S16x16, .f32⟩
  | .local _ .vmem, ⟨12, _⟩ => ⟨S16x1, .f32⟩
  | .local _ .vmem, ⟨13, _⟩ => ⟨S16x16, .f32⟩
  | .local _ .vmem, ⟨14, _⟩ => ⟨S16x1, .f32⟩
  | .local _ .vmem, ⟨15, _⟩ => ⟨S16x16, .f32⟩
  | .local _ .vmem, ⟨16, _⟩ => ⟨S16x1, .f32⟩
  | .local _ .vmem, ⟨17, _⟩ => ⟨S16x16, .f32⟩
  | .local _ .vmem, ⟨18, _⟩ => ⟨S16x1, .f32⟩
  | .local _ .vmem, ⟨19, _⟩ => ⟨S1x16, .f32⟩
  | .local _ .vmem, ⟨20, _⟩ => ⟨S1x1, .f32⟩
  | .local _ .vmem, ⟨21, _⟩ => ⟨S1x1, .f32⟩
  | .local _ .vmem, ⟨22, _⟩ => ⟨S1x65536, .f32⟩
  | .local _ .vmem, ⟨23, _⟩ => ⟨S1x65536, .f32⟩
  | _, _ => ⟨S2097152x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg20_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem20_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1x65536 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  shapeCasts_S2097152x1_S1x2097152 : S2097152x1.ShapeCasts S1x2097152
  transposes_S1x16_S16x1_1_0 : S1x16.Transposes [1, 0] S16x1
  shapeCasts_S16_S16x1 : S16.ShapeCasts S16x1
  transposes_S16x16_S16x16_1_0 : S16x16.Transposes [1, 0] S16x16
  transposes_S16x1_S1x16_1_0 : S16x1.Transposes [1, 0] S1x16
  shapeCasts_S1_S1x1 : S1.ShapeCasts S1x1
  inb_S1x65536_S1x65536_0_0 : ∀ a, (![0, 0] : Fin 2 → Nat) a + S1x65536.size a ≤ S1x65536.size a
  h_S1x65536 : 0 < S1x65536.numel
  shapeCasts_S1x65536_S1x65536 : S1x65536.ShapeCasts S1x65536
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x65536 : S16x1.Broadcasts S16x65536
  broadcasts_S1x65536_S16x65536 : S1x65536.Broadcasts S16x65536
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  shapeCasts_S1x1_S1x1 : S1x1.ShapeCasts S1x1
  broadcasts_S1x1_S1x65536 : S1x1.Broadcasts S1x65536
  shapeCasts_S1x2097152_S2097152x1 : S1x2097152.ShapeCasts S2097152x1
  dot_S16x16_S16x65536_S16x65536_1_0_0_1_n_n_wf : DotDims.WF S16x16 S16x65536 S16x65536 [1] [0] [0] [1] [] []
  dot_S1x16_S16x65536_S1x65536_1_0_0_1_n_n_wf : DotDims.WF S1x16 S16x65536 S1x65536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x65536.size a ≤ S1x2097152.size a
  hwx0_0 : ∀ i : grid0.Coords, EltTy.bits .f32 = 32 ∨ (Rect.block (s := S1x2097152) S1x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x65536.size a ≤ S1x2097152.size a
  hwx0_1 : ∀ i : grid0.Coords, EltTy.bits .f32 = 32 ∨ (Rect.block (s := S1x2097152) S1x65536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S16x1.size a
  hwx0_3 : ∀ i : grid0.Coords, EltTy.bits .f32 = 32 ∨ (Rect.block (s := S16x1) S16x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S16x16.size a
  hwx0_5 : ∀ i : grid0.Coords, EltTy.bits .f32 = 32 ∨ (Rect.block (s := S16x16) S16x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x16.size a ≤ S16x16.size a
  hwx0_7 : ∀ i : grid0.Coords, EltTy.bits .f32 = 32 ∨ (Rect.block (s := S16x16) S16x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x1.size a ≤ S16x1.size a
  hwx0_8 : ∀ i : grid0.Coords, EltTy.bits .f32 = 32 ∨ (Rect.block (s := S16x1) S16x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x16.size a ≤ S16x16.size a
  hwx0_9 : ∀ i : grid0.Coords, EltTy.bits .f32 = 32 ∨ (Rect.block (s := S16x16) S16x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x1.size a ≤ S16x1.size a
  hwx0_10 : ∀ i : grid0.Coords, EltTy.bits .f32 = 32 ∨ (Rect.block (s := S16x1) S16x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S16x16.size a ≤ S16x16.size a
  hwx0_11 : ∀ i : grid0.Coords, EltTy.bits .f32 = 32 ∨ (Rect.block (s := S16x16) S16x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S16x1.size a ≤ S16x1.size a
  hwx0_12 : ∀ i : grid0.Coords, EltTy.bits .f32 = 32 ∨ (Rect.block (s := S16x1) S16x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S16x16.size a ≤ S16x16.size a
  hwx0_13 : ∀ i : grid0.Coords, EltTy.bits .f32 = 32 ∨ (Rect.block (s := S16x16) S16x16.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S16x1.size a ≤ S16x1.size a
  hwx0_14 : ∀ i : grid0.Coords, EltTy.bits .f32 = 32 ∨ (Rect.block (s := S16x1) S16x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S16x16.size a ≤ S16x16.size a
  hwx0_15 : ∀ i : grid0.Coords, EltTy.bits .f32 = 32 ∨ (Rect.block (s := S16x16) S16x16.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S16x1.size a ≤ S16x1.size a
  hwx0_16 : ∀ i : grid0.Coords, EltTy.bits .f32 = 32 ∨ (Rect.block (s := S16x1) S16x1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x16.size a ≤ S1x16.size a
  hwx0_17 : ∀ i : grid0.Coords, EltTy.bits .f32 = 32 ∨ (Rect.block (s := S1x16) S1x16.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x1.size a ≤ S1x1.size a
  hwx0_18 : ∀ i : grid0.Coords, EltTy.bits .f32 = 32 ∨ (Rect.block (s := S1x1) S1x1.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1.size a ≤ S1x1.size a
  hwx0_19 : ∀ i : grid0.Coords, EltTy.bits .f32 = 32 ∨ (Rect.block (s := S1x1) S1x1.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1x65536.size a ≤ S1x2097152.size a
  hwx0_20 : ∀ i : grid0.Coords, EltTy.bits .f32 = 32 ∨ (Rect.block (s := S1x2097152) S1x65536.size (cc0_transform_20 i) (hinb0_20 i)).WholeWords (EltTy.packing .f32)

variable [Facts₀]

def dot_S16x16_S16x65536_S16x65536_1_0_0_1_n_n : DotDims S16x16 S16x65536 S16x65536 where
  lhsContracting := [1]
  rhsContracting := [0]
  lhsNonContracting := [0]
  rhsNonContracting := [1]
  lhsBatch := []
  rhsBatch := []
  wf := dot_S16x16_S16x65536_S16x65536_1_0_0_1_n_n_wf
def dot_S1x16_S16x65536_S1x65536_1_0_0_1_n_n : DotDims S1x16 S16x65536 S1x65536 where
  lhsContracting := [1]
  rhsContracting := [0]
  lhsNonContracting := [0]
  rhsNonContracting := [1]
  lhsBatch := []
  rhsBatch := []
  wf := dot_S1x16_S16x65536_S1x65536_1_0_0_1_n_n_wf

abbrev win0_0 : Pipeline.Window sig grid0 :=
  Pipeline.Window.ofSpec (Memref.whole main_v0) S1x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S16x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S16x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S16x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S16x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S16x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S16x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S16x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S16x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S16x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14) S16x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15) S16x16.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v16) S16x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v17) S1x16.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v18) S1x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v19) S1x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v20) S1x65536.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S2097152x1 : Shape := ⟨2, ![2097152, 1]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S2097152x16 : Shape := ⟨2, ![2097152, 16]⟩
abbrev S1x1 : Shape := ⟨2, ![1, 1]⟩

abbrev nBuf : Space → Nat
  | .hbm => 82
  | .vmem => 0
  | .smem => 0
  | _ => 0

abbrev bufTy : (tb : Table) → Fin (tcTables nBuf tb) → BufTy
  | .hbm, ⟨0, _⟩ => ⟨S2097152x1, .f32⟩
  | .hbm, ⟨1, _⟩ => ⟨S2097152x1, .f32⟩
  | .hbm, ⟨2, _⟩ => ⟨S1x16, .f32⟩
  | .hbm, ⟨3, _⟩ => ⟨S1x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16x16, .f32⟩
  | .hbm, ⟨10, _⟩ => ⟨S16, .f32⟩
  | .hbm, ⟨11, _⟩ => ⟨S16x16, .f32⟩
  | .hbm, ⟨12, _⟩ => ⟨S16, .f32⟩
  | .hbm, ⟨13, _⟩ => ⟨S16x16, .f32⟩
  | .hbm, ⟨14, _⟩ => ⟨S16, .f32⟩
  | .hbm, ⟨15, _⟩ => ⟨S16x16, .f32⟩
  | .hbm, ⟨16, _⟩ => ⟨S16, .f32⟩
  | .hbm, ⟨17, _⟩ => ⟨S16x1, .f32⟩
  | .hbm, ⟨18, _⟩ => ⟨S1, .f32⟩
  | .hbm, ⟨19, _⟩ => ⟨S1, .f32⟩
  | .hbm, ⟨20, _⟩ => ⟨S2097152x16, .f32⟩
  | .hbm, ⟨21, _⟩ => ⟨S2097152x16, .f32⟩
  | .hbm, ⟨22, _⟩ => ⟨S2097152x16, .f32⟩
  | .hbm, ⟨23, _⟩ => ⟨S1x16, .f32⟩
  | .hbm, ⟨24, _⟩ => ⟨S2097152x16, .f32⟩
  | .hbm, ⟨25, _⟩ => ⟨S2097152x16, .f32⟩
  | .hbm, ⟨26, _⟩ => ⟨S1x1, .f32⟩
  | .hbm, ⟨27, _⟩ => ⟨S2097152x16, .f32⟩
  | .hbm, ⟨28, _⟩ => ⟨S2097152x16, .f32⟩
  | .hbm, ⟨29, _⟩ => ⟨S2097152x16, .f32⟩
  | .hbm, ⟨30, _⟩ => ⟨S2097152x16, .f32⟩
  | .hbm, ⟨31, _⟩ => ⟨S1x16, .f32⟩
  | .hbm, ⟨32, _⟩ => ⟨S2097152x16, .f32⟩
  | .hbm, ⟨33, _⟩ => ⟨S2097152x16, .f32⟩
  | .hbm, ⟨34, _⟩ => ⟨S1x1, .f32⟩
  | .hbm, ⟨35, _⟩ => ⟨S2097152x16, .f32⟩
  | .hbm, ⟨36, _⟩ => ⟨S2097152x16, .f32⟩
  | .hbm, ⟨37, _⟩ => ⟨S2097152x16, .f32⟩
  | .hbm, ⟨38, _⟩ => ⟨S2097152x16, .f32⟩
  | .hbm, ⟨39, _⟩ => ⟨S1x16, .f32⟩
  | .hbm, ⟨40, _⟩ => ⟨S2097152x16, .f32⟩
  | .hbm, ⟨41, _⟩ => ⟨S2097152x16, .f32⟩
  | .hbm, ⟨42, _⟩ => ⟨S1x1, .f32⟩
  | .hbm, ⟨43, _⟩ => ⟨S2097152x16, .f32⟩
  | .hbm, ⟨44, _⟩ => ⟨S2097152x16, .f32⟩
  | .hbm, ⟨45, _⟩ => ⟨S2097152x16, .f32⟩
  | .hbm, ⟨46, _⟩ => ⟨S2097152x16, .f32⟩
  | .hbm, ⟨47, _⟩ => ⟨S1x16, .f32⟩
  | .hbm, ⟨48, _⟩ => ⟨S2097152x16, .f32⟩
  | .hbm, ⟨49, _⟩ => ⟨S2097152x16, .f32⟩
  | .hbm, ⟨50, _⟩ => ⟨S1x1, .f32⟩
  | .hbm, ⟨51, _⟩ => ⟨S2097152x16, .f32⟩
  | .hbm, ⟨52, _⟩ => ⟨S2097152x16, .f32⟩
  | .hbm, ⟨53, _⟩ => ⟨S2097152x16, .f32⟩
  | .hbm, ⟨54, _⟩ => ⟨S2097152x16, .f32⟩
  | .hbm, ⟨55, _⟩ => ⟨S1x16, .f32⟩
  | .hbm, ⟨56, _⟩ => ⟨S2097152x16, .f32⟩
  | .hbm, ⟨57, _⟩ => ⟨S2097152x16, .f32⟩
  | .hbm, ⟨58, _⟩ => ⟨S1x1, .f32⟩
  | .hbm, ⟨59, _⟩ => ⟨S2097152x16, .f32⟩
  | .hbm, ⟨60, _⟩ => ⟨S2097152x16, .f32⟩
  | .hbm, ⟨61, _⟩ => ⟨S2097152x16, .f32⟩
  | .hbm, ⟨62, _⟩ => ⟨S2097152x16, .f32⟩
  | .hbm, ⟨63, _⟩ => ⟨S1x16, .f32⟩
  | .hbm, ⟨64, _⟩ => ⟨S2097152x16, .f32⟩
  | .hbm, ⟨65, _⟩ => ⟨S2097152x16, .f32⟩
  | .hbm, ⟨66, _⟩ => ⟨S1x1, .f32⟩
  | .hbm, ⟨67, _⟩ => ⟨S2097152x16, .f32⟩
  | .hbm, ⟨68, _⟩ => ⟨S2097152x16, .f32⟩
  | .hbm, ⟨69, _⟩ => ⟨S2097152x16, .f32⟩
  | .hbm, ⟨70, _⟩ => ⟨S2097152x16, .f32⟩
  | .hbm, ⟨71, _⟩ => ⟨S1x16, .f32⟩
  | .hbm, ⟨72, _⟩ => ⟨S2097152x16, .f32⟩
  | .hbm, ⟨73, _⟩ => ⟨S2097152x16, .f32⟩
  | .hbm, ⟨74, _⟩ => ⟨S1x1, .f32⟩
  | .hbm, ⟨75, _⟩ => ⟨S2097152x16, .f32⟩
  | .hbm, ⟨76, _⟩ => ⟨S2097152x16, .f32⟩
  | .hbm, ⟨77, _⟩ => ⟨S2097152x16, .f32⟩
  | .hbm, ⟨78, _⟩ => ⟨S2097152x1, .f32⟩
  | .hbm, ⟨79, _⟩ => ⟨S1x1, .f32⟩
  | .hbm, ⟨80, _⟩ => ⟨S2097152x1, .f32⟩
  | .hbm, ⟨81, _⟩ => ⟨S2097152x1, .f32⟩
  | _, _ => ⟨S2097152x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S2097152x16_0_1 : S1x16.BroadcastsInDim S2097152x16 (![0, 1] : Fin 2 → Fin S2097152x16.rank)
  bcast_S1_S1x1_1 : S1.BroadcastsInDim S1x1 (![1] : Fin 1 → Fin S1x1.rank)
  bcast_S1x1_S2097152x16_0_1 : S1x1.BroadcastsInDim S2097152x16 (![0, 1] : Fin 2 → Fin S2097152x16.rank)
  bcast_S1x1_S2097152x1_0_1 : S1x1.BroadcastsInDim S2097152x1 (![0, 1] : Fin 2 → Fin S2097152x1.rank)
  dot_S2097152x1_S1x16_S2097152x16_1_0_0_1_n_n_wf : DotDims.WF S2097152x1 S1x16 S2097152x16 [1] [0] [0] [1] [] []
  dot_S2097152x16_S16x16_S2097152x16_1_0_0_1_n_n_wf : DotDims.WF S2097152x16 S16x16 S2097152x16 [1] [0] [0] [1] [] []
  dot_S2097152x16_S16x1_S2097152x1_1_0_0_1_n_n_wf : DotDims.WF S2097152x16 S16x1 S2097152x1 [1] [0] [0] [1] [] []

variable [Facts₀]

def dot_S2097152x1_S1x16_S2097152x16_1_0_0_1_n_n : DotDims S2097152x1 S1x16 S2097152x16 where
  lhsContracting := [1]
  rhsContracting := [0]
  lhsNonContracting := [0]
  rhsNonContracting := [1]
  lhsBatch := []
  rhsBatch := []
  wf := dot_S2097152x1_S1x16_S2097152x16_1_0_0_1_n_n_wf
def dot_S2097152x16_S16x16_S2097152x16_1_0_0_1_n_n : DotDims S2097152x16 S16x16 S2097152x16 where
  lhsContracting := [1]
  rhsContracting := [0]
  lhsNonContracting := [0]
  rhsNonContracting := [1]
  lhsBatch := []
  rhsBatch := []
  wf := dot_S2097152x16_S16x16_S2097152x16_1_0_0_1_n_n_wf
def dot_S2097152x16_S16x1_S2097152x1_1_0_0_1_n_n : DotDims S2097152x16 S16x1 S2097152x1 where
  lhsContracting := [1]
  rhsContracting := [0]
  lhsNonContracting := [0]
  rhsNonContracting := [1]
  lhsBatch := []
  rhsBatch := []
  wf := dot_S2097152x16_S16x1_S2097152x1_1_0_0_1_n_n_wf

class Facts : Prop extends Facts₀ where

variable [Facts]
-- ==== Proof.Mlp.lean ====
/-
  The network both programs compute, one collocation point at a time.

  A point carries two real coordinates `x` and `x2`. The first layer forms sixteen units
  `tanh (a · (w1 j · x + w2 j · x2 + b1 j))`; each of the six hidden layers maps sixteen units `L` to
  `tanh (a · (∑ k, W k j · L k + b j))`; the last layer is the single number `∑ k, w9 k · L k + b9`.
  Here `a` is the one slope shared by every layer. Everything is stated on the extended reals with the
  ideal `tanh`; a product is written weight first, and the one law a reader of the other arrangement
  needs is that a product commutes (`hidden_comm`, `last_comm`, `first_comm`) — no finiteness.
-/
import Idealize.ShloMosaic.PureOps.Ideal.Laws
import Idealize.ShloMosaic.Lib.ValueIdx

noncomputable section

namespace Cert.Mlp

open Idealize.ShloMosaic Idealize.ShloMosaic.ValueIdx
open scoped BigOperators

/-- One unit of the first layer from the point's two coordinates. -/
def first (a : EReal) (w1 w2 b : Fin 16 → EReal) (x x2 : EReal) (j : Fin 16) : EReal :=
  Ideal.tanh (a * (w1 j * x + w2 j * x2 + b j))

/-- One unit of a hidden layer from the sixteen units below it; `W k j` is the weight from unit `k` to unit `j`. -/
def hidden (a : EReal) (W : Fin 16 → Fin 16 → EReal) (b : Fin 16 → EReal) (L : Fin 16 → EReal) (j : Fin 16) : EReal :=
  Ideal.tanh (a * ((∑ k : Fin 16, W k j * L k) + b j))

/-- The output from the last sixteen units. -/
def last (w : Fin 16 → EReal) (b : EReal) (L : Fin 16 → EReal) : EReal :=
  (∑ k : Fin 16, w k * L k) + b

/-- The same first-layer unit with each product written coordinate first. -/
theorem first_comm (a : EReal) (w1 w2 b : Fin 16 → EReal) (x x2 : EReal) (j : Fin 16) :
    Ideal.tanh (a * (x * w1 j + x2 * w2 j + b j)) = first a w1 w2 b x x2 j := by
  unfold first; rw [mul_comm x, mul_comm x2]

/-- The same hidden unit with each product written unit first. -/
theorem hidden_comm (a : EReal) (W : Fin 16 → Fin 16 → EReal) (b : Fin 16 → EReal) (L : Fin 16 → EReal) (j : Fin 16) :
    Ideal.tanh (a * ((∑ k : Fin 16, L k * W k j) + b j)) = hidden a W b L j := by
  unfold hidden
  rw [Finset.sum_congr rfl fun k _ => mul_comm (L k) (W k j)]

/-- The same output with each product written unit first. -/
theorem last_comm (w : Fin 16 → EReal) (b : EReal) (L : Fin 16 → EReal) :
    (∑ k : Fin 16, L k * w k) + b = last w b L := by
  unfold last
  rw [Finset.sum_congr rfl fun k _ => mul_comm (L k) (w k)]

/-- The weights of the network. -/
structure Weights where
  a : EReal
  w1 : Fin 16 → EReal
  w2 : Fin 16 → EReal
  b1 : Fin 16 → EReal
  W3 : Fin 16 → Fin 16 → EReal
  B3 : Fin 16 → EReal
  W4 : Fin 16 → Fin 16 → EReal
  B4 : Fin 16 → EReal
  W5 : Fin 16 → Fin 16 → EReal
  B5 : Fin 16 → EReal
  W6 : Fin 16 → Fin 16 → EReal
  B6 : Fin 16 → EReal
  W7 : Fin 16 → Fin 16 → EReal
  B7 : Fin 16 → EReal
  W8 : Fin 16 → Fin 16 → EReal
  B8 : Fin 16 → EReal
  w9 : Fin 16 → EReal
  b9 : EReal

/-- The network at one point. -/
def net (P : Weights) (x x2 : EReal) : EReal :=
  last P.w9 P.b9 (hidden P.a P.W8 P.B8 (hidden P.a P.W7 P.B7 (hidden P.a P.W6 P.B6 (hidden P.a P.W5 P.B5
    (hidden P.a P.W4 P.B4 (hidden P.a P.W3 P.B3 (first P.a P.w1 P.w2 P.b1 x x2)))))))

/-- The weights read off the programs' argument arrays: a matrix `[16, 16]` at `(k, j)`, a row `[1, 16]` at `(0, j)`,
    a column `[16, 1]` at `(k, 0)`, a vector at its one coordinate. -/
def ofArgs (A2 A3 : (⟨2, ![1, 16]⟩ : Shape).Idx → EReal) (A4 : (⟨1, ![16]⟩ : Shape).Idx → EReal)
    (A5 : (⟨2, ![16, 16]⟩ : Shape).Idx → EReal) (A6 : (⟨1, ![16]⟩ : Shape).Idx → EReal)
    (A7 : (⟨2, ![16, 16]⟩ : Shape).Idx → EReal) (A8 : (⟨1, ![16]⟩ : Shape).Idx → EReal)
    (A9 : (⟨2, ![16, 16]⟩ : Shape).Idx → EReal) (A10 : (⟨1, ![16]⟩ : Shape).Idx → EReal)
    (A11 : (⟨2, ![16, 16]⟩ : Shape).Idx → EReal) (A12 : (⟨1, ![16]⟩ : Shape).Idx → EReal)
    (A13 : (⟨2, ![16, 16]⟩ : Shape).Idx → EReal) (A14 : (⟨1, ![16]⟩ : Shape).Idx → EReal)
    (A15 : (⟨2, ![16, 16]⟩ : Shape).Idx → EReal) (A16 : (⟨1, ![16]⟩ : Shape).Idx → EReal)
    (A17 : (⟨2, ![16, 1]⟩ : Shape).Idx → EReal) (A18 A19 : (⟨1, ![1]⟩ : Shape).Idx → EReal) : Weights where
  a := A19 (ix1 (0 : Fin 1))
  w1 j := A2 (ix2 (0 : Fin 1) j)
  w2 j := A3 (ix2 (0 : Fin 1) j)
  b1 j := A4 (ix1 j)
  W3 k j := A5 (ix2 k j)
  B3 j := A6 (ix1 j)
  W4 k j := A7 (ix2 k j)
  B4 j := A8 (ix1 j)
  W5 k j := A9 (ix2 k j)
  B5 j := A10 (ix1 j)
  W6 k j := A11 (ix2 k j)
  B6 j := A12 (ix1 j)
  W7 k j := A13 (ix2 k j)
  B7 j := A14 (ix1 j)
  W8 k j := A15 (ix2 k j)
  B8 j := A16 (ix1 j)
  w9 k := A17 (ix2 k (0 : Fin 1))
  b9 := A18 (ix1 (0 : Fin 1))

end Cert.Mlp

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibUnitLayout.lean ====
/-
  Two layout facts read at an index, generic in the shapes.

  A host `broadcast_in_dim` with dims `[0, 1]` of a `[1, 1]` array over `[a, b]` reads the array's one entry at every index
  (the companion of the column `[n, 1]` and row `[1, d]` forms, for an operand both of whose axes are unit axes — a scalar
  parameter carried as `[1, 1]`). And re-laying two arrays of one shape as another shape, combining them entry by entry, and
  re-laying the outcome back is combining the two arrays themselves entry by entry: a reshape only renames indices, and there
  and back renames them to themselves — what lets a program that works on a re-laid copy of its arguments and re-lays its
  result back be read without computing any index.
-/
import Idealize.ShloMosaic.Lib.ValueIdx
import Idealize.ShloMosaic.Lib.Pipeline.Value

namespace Cert.UnitLayout

open Idealize.ShloMosaic Idealize.ShloMosaic.ValueIdx

/-- A `[1, 1]` array placed along both axes of `[a, b]` reads its one entry everywhere. -/
theorem broadcastInDim_11_ab_apply {α : Type} {a b : ℕ} (v : (⟨2, ![1, 1]⟩ : Shape).Idx → α)
    (h : (⟨2, ![1, 1]⟩ : Shape).BroadcastsInDim ⟨2, ![a, b]⟩ ![0, 1]) (p : Fin a) (q : Fin b) :
    broadcastInDim ⟨2, ![a, b]⟩ ![0, 1] h v (ix2 p q) = v (ix2 (0 : Fin 1) (0 : Fin 1)) := by
  refine broadcastInDim_apply _ h v (ix2 p q) (ix2 (0 : Fin 1) (0 : Fin 1)) fun d => ?_
  match d with
  | ⟨0, _⟩ => rfl
  | ⟨1, _⟩ => rfl

/-- Re-laying two arrays, combining them entry by entry, and re-laying the outcome back is combining the arrays
    themselves entry by entry. -/
theorem shapeCast_combine {s t : Shape} {α β : Type} (f : α → α → β) (a b : s.Idx → α) (h : s.ShapeCasts t) (h' : t.ShapeCasts s)
    (i : s.Idx) : shapeCast s (fun k => f (shapeCast t a h k) (shapeCast t b h k)) h' i = f (a i) (b i) := by
  show f (shapeCast s (shapeCast t a h) h' i) (shapeCast s (shapeCast t b h) h' i) = _
  rw [shapeCast_shapeCast, shapeCast_shapeCast]

end Cert.UnitLayout
-- ==== Proof.RefPoint.lean ====
/-
  The reference read one collocation point at a time.

  Its program keeps the `N` points as the rows of an `[N, 16]` table of units. One hidden layer multiplies the table by a
  `[16, 16]` weight matrix (row `n` of the product at column `j` is `∑ k, L n k · W k j`), adds the bias along every row,
  multiplies by the slope and applies `tanh`: row `n` of the new table depends on row `n` of the old one alone, and is the
  network's hidden layer on those sixteen units, each product written unit first. The first layer contracts an `[N, 1]`
  column with a `[1, 16]` row, a sum of one term; the last contracts with a `[16, 1]` column. So the whole result at row
  `n` is the network at the point's two coordinates.
-/
import proofs.«135203_j41609643164200_2_alg».proof.Proof.Gen.ReferenceIdeal.Read
import proofs.«135203_j41609643164200_2_alg».proof.Proof.Mlp
import proofs.«135203_j41609643164200_2_alg».proof.Proof.LibDenseRows
import proofs.«135203_j41609643164200_2_alg».proof.Proof.LibUnitLayout

noncomputable section

namespace Cert.RefPoint

open Cert.ReferenceIdeal Cert.ReferenceIdeal.Gen Cert.ReferenceIdeal.Read
open Idealize.ShloMosaic Idealize.ShloMosaic.TcCoe Idealize.ShloMosaic.ValueIdx Idealize.ShloMosaic.StableHlo
open scoped BigOperators

/-- The host's `tanh` of a table, read at an index. -/
theorem hostTanh_apply {s : Shape} (v : FVec Ideal s .f32) (i : s.Idx) : Host.tanh v i = Ideal.tanh (v i) := rfl

/-- One hidden layer as the reference writes it, on a table `y` of units: the table times the weights, plus the bias along
    every row, times the slope, through `tanh`. -/
def layer (y : FVec Ideal S2097152x16 .f32) (W : FVec Ideal S16x16 .f32) (b : FVec Ideal S16 .f32) (al : FVec Ideal S1 .f32) :
    FVec Ideal S2097152x16 .f32 :=
  Host.tanh (mulf (broadcastInDim S2097152x16 ![0, 1] bcast_S1x1_S2097152x16_0_1 (broadcastInDim S1x1 ![1] bcast_S1_S1x1_1 al))
    (addf (Host.dotGeneral dot_S2097152x16_S16x16_S2097152x16_1_0_0_1_n_n none y W)
      (broadcastInDim S2097152x16 ![0, 1] bcast_S1x16_S2097152x16_0_1 (broadcastInDim S1x16 ![1] bcast_S16_S1x16_1 b))))

/-- Row `n` of the layer's result is the network's hidden layer on row `n` of the table. -/
theorem layer_apply (y : FVec Ideal S2097152x16 .f32) (W : FVec Ideal S16x16 .f32) (b : FVec Ideal S16 .f32) (al : FVec Ideal S1 .f32)
    (n : Fin 2097152) (j : Fin 16) :
    layer y W b al (ix2 n j)
      = Cert.Mlp.hidden (al (ix1 (0 : Fin 1))) (fun k j => W (ix2 k j)) (fun j => b (ix1 j)) (fun k => y (ix2 n k)) j := by
  have hdot : Host.dotGeneral dot_S2097152x16_S16x16_S2097152x16_1_0_0_1_n_n none y W (ix2 n j)
      = ∑ k : Fin 16, y (ix2 n k) * W (ix2 k j) :=
    Cert.DenseRows.dotGeneral_plain_apply dot_S2097152x16_S16x16_S2097152x16_1_0_0_1_n_n rfl rfl rfl rfl
      lhs_main_v10_0 rhs_main_v10_1 y W n j
  have hbias : broadcastInDim S2097152x16 ![0, 1] bcast_S1x16_S2097152x16_0_1 (broadcastInDim S1x16 ![1] bcast_S16_S1x16_1 b) (ix2 n j)
      = b (ix1 j) :=
    Cert.DenseRows.rowBias_inDim_apply b bcast_S16_S1x16_1 bcast_S1x16_S2097152x16_0_1 n j
  have hslope : broadcastInDim S2097152x16 ![0, 1] bcast_S1x1_S2097152x16_0_1 (broadcastInDim S1x1 ![1] bcast_S1_S1x1_1 al) (ix2 n j)
      = al (ix1 (0 : Fin 1)) :=
    (Cert.UnitLayout.broadcastInDim_11_ab_apply _ bcast_S1x1_S2097152x16_0_1 n j).trans
      (Cert.DenseRows.broadcastInDim_a_1a_apply al bcast_S1_S1x1_1 0 0)
  unfold layer
  rw [hostTanh_apply, mulf_apply, addf_apply, hdot, hbias, hslope]
  exact Cert.Mlp.hidden_comm (al (ix1 (0 : Fin 1))) (fun k j => W (ix2 k j)) (fun j => b (ix1 j)) (fun k => y (ix2 n k)) j

section stages

variable (x0 x1 : (⟨S2097152x1, .f32⟩ : BufTy).Contents (Elt Ideal)) (x2 x3 : (⟨S1x16, .f32⟩ : BufTy).Contents (Elt Ideal)) (x4 : (⟨S16, .f32⟩ : BufTy).Contents (Elt Ideal)) (x5 : (⟨S16x16, .f32⟩ : BufTy).Contents (Elt Ideal)) (x6 : (⟨S16, .f32⟩ : BufTy).Contents (Elt Ideal)) (x7 : (⟨S16x16, .f32⟩ : BufTy).Contents (Elt Ideal)) (x8 : (⟨S16, .f32⟩ : BufTy).Contents (Elt Ideal)) (x9 : (⟨S16x16, .f32⟩ : BufTy).Contents (Elt Ideal)) (x10 : (⟨S16, .f32⟩ : BufTy).Contents (Elt Ideal)) (x11 : (⟨S16x16, .f32⟩ : BufTy).Contents (Elt Ideal)) (x12 : (⟨S16, .f32⟩ : BufTy).Contents (Elt Ideal)) (x13 : (⟨S16x16, .f32⟩ : BufTy).Contents (Elt Ideal)) (x14 : (⟨S16, .f32⟩ : BufTy).Contents (Elt Ideal)) (x15 : (⟨S16x16, .f32⟩ : BufTy).Contents (Elt Ideal)) (x16 : (⟨S16, .f32⟩ : BufTy).Contents (Elt Ideal)) (x17 : (⟨S16x1, .f32⟩ : BufTy).Contents (Elt Ideal)) (x18 x19 : (⟨S1, .f32⟩ : BufTy).Contents (Elt Ideal))

/-- The reference's stage `%17` is one hidden layer on top of stage `%9`. -/
theorem stage17_eq : val_main_v17 (F := Ideal) x0 x1 x2 x3 x4 x5 x6 x19 = layer (val_main_v9 (F := Ideal) x0 x1 x2 x3 x4 x19) x5 x6 x19 := by
  unfold val_main_v17 val_main_v16 val_main_v15 val_main_v14 val_main_v13 val_main_v12 val_main_v11 val_main_v10 layer
  rfl

/-- The reference's stage `%25` is one hidden layer on top of stage `%17`. -/
theorem stage25_eq : val_main_v25 (F := Ideal) x0 x1 x2 x3 x4 x5 x6 x7 x8 x19 = layer (val_main_v17 (F := Ideal) x0 x1 x2 x3 x4 x5 x6 x19) x7 x8 x19 := by
  unfold val_main_v25 val_main_v24 val_main_v23 val_main_v22 val_main_v21 val_main_v20 val_main_v19 val_main_v18 layer
  rfl

/-- The reference's stage `%33` is one hidden layer on top of stage `%25`. -/
theorem stage33_eq : val_main_v33 (F := Ideal) x0 x1 x2 x3 x4 x5 x6 x7 x8 x9 x10 x19 = layer (val_main_v25 (F := Ideal) x0 x1 x2 x3 x4 x5 x6 x7 x8 x19) x9 x10 x19 := by
  unfold val_main_v33 val_main_v32 val_main_v31 val_main_v30 val_main_v29 val_main_v28 val_main_v27 val_main_v26 layer
  rfl

/-- The reference's stage `%41` is one hidden layer on top of stage `%33`. -/
theorem stage41_eq : val_main_v41 (F := Ideal) x0 x1 x2 x3 x4 x5 x6 x7 x8 x9 x10 x11 x12 x19 = layer (val_main_v33 (F := Ideal) x0 x1 x2 x3 x4 x5 x6 x7 x8 x9 x10 x19) x11 x12 x19 := by
  unfold val_main_v41 val_main_v40 val_main_v39 val_main_v38 val_main_v37 val_main_v36 val_main_v35 val_main_v34 layer
  rfl

/-- The reference's stage `%49` is one hidden layer on top of stage `%41`. -/
theorem stage49_eq : val_main_v49 (F := Ideal) x0 x1 x2 x3 x4 x5 x6 x7 x8 x9 x10 x11 x12 x13 x14 x19 = layer (val_main_v41 (F := Ideal) x0 x1 x2 x3 x4 x5 x6 x7 x8 x9 x10 x11 x12 x19) x13 x14 x19 := by
  unfold val_main_v49 val_main_v48 val_main_v47 val_main_v46 val_main_v45 val_main_v44 val_main_v43 val_main_v42 layer
  rfl

/-- The reference's stage `%57` is one hidden layer on top of stage `%49`. -/
theorem stage57_eq : val_main_v57 (F := Ideal) x0 x1 x2 x3 x4 x5 x6 x7 x8 x9 x10 x11 x12 x13 x14 x15 x16 x19 = layer (val_main_v49 (F := Ideal) x0 x1 x2 x3 x4 x5 x6 x7 x8 x9 x10 x11 x12 x13 x14 x19) x15 x16 x19 := by
  unfold val_main_v57 val_main_v56 val_main_v55 val_main_v54 val_main_v53 val_main_v52 val_main_v51 val_main_v50 layer
  rfl

/-- The reference's first layer, stage `%9`, at row `n`: the network's first layer at the point's two coordinates. -/
theorem stage9_apply (n : Fin 2097152) (j : Fin 16) :
    val_main_v9 (F := Ideal) x0 x1 x2 x3 x4 x19 (ix2 n j)
      = Cert.Mlp.first (x19 (ix1 (0 : Fin 1))) (fun j => x2 (ix2 (0 : Fin 1) j)) (fun j => x3 (ix2 (0 : Fin 1) j)) (fun j => x4 (ix1 j))
          (x0 (ix2 n (0 : Fin 1))) (x1 (ix2 n (0 : Fin 1))) j := by
  have el0 : lidx_main_v0 (ix2 n j) (0 : Fin 1) = ix2 n (0 : Fin 1) :=
    funext fun a => Fin.ext (by match a with | ⟨0, _⟩ => rfl | ⟨1, _⟩ => rfl)
  have er0 : ridx_main_v0 (ix2 n j) (0 : Fin 1) = ix2 (0 : Fin 1) j :=
    funext fun a => Fin.ext (by match a with | ⟨0, _⟩ => rfl | ⟨1, _⟩ => rfl)
  have el1 : lidx_main_v1 (ix2 n j) (0 : Fin 1) = ix2 n (0 : Fin 1) :=
    funext fun a => Fin.ext (by match a with | ⟨0, _⟩ => rfl | ⟨1, _⟩ => rfl)
  have er1 : ridx_main_v1 (ix2 n j) (0 : Fin 1) = ix2 (0 : Fin 1) j :=
    funext fun a => Fin.ext (by match a with | ⟨0, _⟩ => rfl | ⟨1, _⟩ => rfl)
  have eb : idx_main_v3 (idx_main_v4 (ix2 n j)) = ix1 j :=
    funext fun a => Fin.ext (by match a with | ⟨0, _⟩ => rfl)
  have ea : idx_main_v6 (idx_main_v7 (ix2 n j)) = ix1 (0 : Fin 1) :=
    funext fun a => Fin.ext (by match a with | ⟨0, _⟩ => rfl)
  rw [val_main_v9_apply, val_main_v8_apply, val_main_v7_apply, val_main_v6_apply, val_main_v5_apply, val_main_v4_apply,
    val_main_v3_apply, val_main_v2_apply, val_main_v1_apply, val_main_v0_apply, Fin.sum_univ_one, Fin.sum_univ_one,
    el0, er0, el1, er1, eb, ea]
  simp only [Ideal.hostUnary_tanh_def, Ideal.mulf_def, Ideal.addf_def]
  exact Cert.Mlp.first_comm (x19 (ix1 (0 : Fin 1))) (fun j => x2 (ix2 (0 : Fin 1) j)) (fun j => x3 (ix2 (0 : Fin 1) j)) (fun j => x4 (ix1 j))
    (x0 (ix2 n (0 : Fin 1))) (x1 (ix2 n (0 : Fin 1))) j

/-- The reference's result, stage `%61`, at row `n`: the network's last layer on row `n` of stage `%57`. -/
theorem stage61_apply (n : Fin 2097152) (u : Fin 1) :
    val_main_v61 (F := Ideal) x0 x1 x2 x3 x4 x5 x6 x7 x8 x9 x10 x11 x12 x13 x14 x15 x16 x17 x18 x19 (ix2 n u)
      = Cert.Mlp.last (fun k => x17 (ix2 k (0 : Fin 1))) (x18 (ix1 (0 : Fin 1)))
          (fun k => val_main_v57 (F := Ideal) x0 x1 x2 x3 x4 x5 x6 x7 x8 x9 x10 x11 x12 x13 x14 x15 x16 x19 (ix2 n k)) := by
  have hu : u = 0 := Subsingleton.elim _ _
  subst hu
  have el : ∀ k : Fin 16, lidx_main_v58 (ix2 n (0 : Fin 1)) k = ix2 n k := fun k =>
    funext fun a => Fin.ext (by match a with | ⟨0, _⟩ => rfl | ⟨1, _⟩ => rfl)
  have er : ∀ k : Fin 16, ridx_main_v58 (ix2 n (0 : Fin 1)) k = ix2 k (0 : Fin 1) := fun k =>
    funext fun a => Fin.ext (by match a with | ⟨0, _⟩ => rfl | ⟨1, _⟩ => rfl)
  have eb : idx_main_v59 (idx_main_v60 (ix2 n (0 : Fin 1))) = ix1 (0 : Fin 1) :=
    funext fun a => Fin.ext (by match a with | ⟨0, _⟩ => rfl)
  rw [val_main_v61_apply, val_main_v60_apply, val_main_v59_apply, val_main_v58_apply, eb]
  simp only [el, er, Ideal.addf_def]
  exact Cert.Mlp.last_comm _ _ _

/-- The reference's result at any index is the network at that point's two coordinates. -/
theorem result_apply (i : S2097152x1.Idx) :
    val_main_v61 (F := Ideal) x0 x1 x2 x3 x4 x5 x6 x7 x8 x9 x10 x11 x12 x13 x14 x15 x16 x17 x18 x19 i
      = Cert.Mlp.net (Cert.Mlp.ofArgs x2 x3 x4 x5 x6 x7 x8 x9 x10 x11 x12 x13 x14 x15 x16 x17 x18 x19) (x0 i) (x1 i) := by
  obtain ⟨n, u, rfl⟩ : ∃ (n : Fin 2097152) (u : Fin 1), i = ix2 n u := ⟨i 0, i 1, eq_ix2 i⟩
  have hu : u = 0 := Subsingleton.elim _ _
  subst hu
  rw [stage61_apply]
  have h57 : (fun k => val_main_v57 (F := Ideal) x0 x1 x2 x3 x4 x5 x6 x7 x8 x9 x10 x11 x12 x13 x14 x15 x16 x19 (ix2 n k)) = Cert.Mlp.hidden (x19 (ix1 (0 : Fin 1))) (fun k j => x15 (ix2 k j)) (fun j => x16 (ix1 j)) (fun k => val_main_v49 (F := Ideal) x0 x1 x2 x3 x4 x5 x6 x7 x8 x9 x10 x11 x12 x13 x14 x19 (ix2 n k)) :=
    funext fun j => (congrFun (stage57_eq x0 x1 x2 x3 x4 x5 x6 x7 x8 x9 x10 x11 x12 x13 x14 x15 x16 x19) _).trans (layer_apply _ _ _ _ n j)
  have h49 : (fun k => val_main_v49 (F := Ideal) x0 x1 x2 x3 x4 x5 x6 x7 x8 x9 x10 x11 x12 x13 x14 x19 (ix2 n k)) = Cert.Mlp.hidden (x19 (ix1 (0 : Fin 1))) (fun k j => x13 (ix2 k j)) (fun j => x14 (ix1 j)) (fun k => val_main_v41 (F := Ideal) x0 x1 x2 x3 x4 x5 x6 x7 x8 x9 x10 x11 x12 x19 (ix2 n k)) :=
    funext fun j => (congrFun (stage49_eq x0 x1 x2 x3 x4 x5 x6 x7 x8 x9 x10 x11 x12 x13 x14 x19) _).trans (layer_apply _ _ _ _ n j)
  have h41 : (fun k => val_main_v41 (F := Ideal) x0 x1 x2 x3 x4 x5 x6 x7 x8 x9 x10 x11 x12 x19 (ix2 n k)) = Cert.Mlp.hidden (x19 (ix1 (0 : Fin 1))) (fun k j => x11 (ix2 k j)) (fun j => x12 (ix1 j)) (fun k => val_main_v33 (F := Ideal) x0 x1 x2 x3 x4 x5 x6 x7 x8 x9 x10 x19 (ix2 n k)) :=
    funext fun j => (congrFun (stage41_eq x0 x1 x2 x3 x4 x5 x6 x7 x8 x9 x10 x11 x12 x19) _).trans (layer_apply _ _ _ _ n j)
  have h33 : (fun k => val_main_v33 (F := Ideal) x0 x1 x2 x3 x4 x5 x6 x7 x8 x9 x10 x19 (ix2 n k)) = Cert.Mlp.hidden (x19 (ix1 (0 : Fin 1))) (fun k j => x9 (ix2 k j)) (fun j => x10 (ix1 j)) (fun k => val_main_v25 (F := Ideal) x0 x1 x2 x3 x4 x5 x6 x7 x8 x19 (ix2 n k)) :=
    funext fun j => (congrFun (stage33_eq x0 x1 x2 x3 x4 x5 x6 x7 x8 x9 x10 x19) _).trans (layer_apply _ _ _ _ n j)
  have h25 : (fun k => val_main_v25 (F := Ideal) x0 x1 x2 x3 x4 x5 x6 x7 x8 x19 (ix2 n k)) = Cert.Mlp.hidden (x19 (ix1 (0 : Fin 1))) (fun k j => x7 (ix2 k j)) (fun j => x8 (ix1 j)) (fun k => val_main_v17 (F := Ideal) x0 x1 x2 x3 x4 x5 x6 x19 (ix2 n k)) :=
    funext fun j => (congrFun (stage25_eq x0 x1 x2 x3 x4 x5 x6 x7 x8 x19) _).trans (layer_apply _ _ _ _ n j)
  have h17 : (fun k => val_main_v17 (F := Ideal) x0 x1 x2 x3 x4 x5 x6 x19 (ix2 n k)) = Cert.Mlp.hidden (x19 (ix1 (0 : Fin 1))) (fun k j => x5 (ix2 k j)) (fun j => x6 (ix1 j)) (fun k => val_main_v9 (F := Ideal) x0 x1 x2 x3 x4 x19 (ix2 n k)) :=
    funext fun j => (congrFun (stage17_eq x0 x1 x2 x3 x4 x5 x6 x19) _).trans (layer_apply _ _ _ _ n j)
  have h9 : (fun k => val_main_v9 (F := Ideal) x0 x1 x2 x3 x4 x19 (ix2 n k)) = Cert.Mlp.first (x19 (ix1 (0 : Fin 1))) (fun j => x2 (ix2 (0 : Fin 1) j)) (fun j => x3 (ix2 (0 : Fin 1) j)) (fun j => x4 (ix1 j)) (x0 (ix2 n (0 : Fin 1))) (x1 (ix2 n (0 : Fin 1))) :=
    funext fun j => stage9_apply x0 x1 x2 x3 x4 x19 n j
  rw [h57, h49, h41, h33, h25, h17, h9]
  rfl

end stages

end Cert.RefPoint

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.HostLayout.lean ====
/-
  What the region finds in the twenty buffers it is launched with.

  Before the launch the program re-lays each argument: the two `[N, 1]` columns of coordinates become `[1, N]` rows (the same
  numbers in the same order), each weight matrix is transposed, each bias vector `[16]` becomes a column `[16, 1]`, the last
  layer's weight column `[16, 1]` becomes a row `[1, 16]`, and the two one-element vectors become `[1, 1]`. Each buffer is
  stated here as that layout of its argument array, and then read at the coordinates the body's layers use: a transposed
  matrix at `(j, k)` is the argument at `(k, j)`, a bias column at `(j, 0)` is the vector at `j`.
-/
import proofs.«135203_j41609643164200_2_alg».proof.Proof.Gen.KernelIdeal.Frame
import proofs.«135203_j41609643164200_2_alg».proof.Proof.LibColumnLayout
import Idealize.ShloMosaic.Lib.ValueLayout
import Idealize.ShloMosaic.Lib.StableHlo.Run

set_option maxRecDepth 16384

noncomputable section

namespace Cert.HostLayout

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

/-! ## The argument arrays, as launched -/

/-- Argument 0 on core `c`, as launched. -/
abbrev arg0 (c : Dev nD) : S2097152x1.Idx → EReal := m ((c : Thread nD τ).loc main_arg0)
/-- Argument 1 on core `c`, as launched. -/
abbrev arg1 (c : Dev nD) : S2097152x1.Idx → EReal := m ((c : Thread nD τ).loc main_arg1)
/-- Argument 2 on core `c`, as launched. -/
abbrev arg2 (c : Dev nD) : S1x16.Idx → EReal := m ((c : Thread nD τ).loc main_arg2)
/-- Argument 3 on core `c`, as launched. -/
abbrev arg3 (c : Dev nD) : S1x16.Idx → EReal := m ((c : Thread nD τ).loc main_arg3)
/-- Argument 4 on core `c`, as launched. -/
abbrev arg4 (c : Dev nD) : S16.Idx → EReal := m ((c : Thread nD τ).loc main_arg4)
/-- Argument 5 on core `c`, as launched. -/
abbrev arg5 (c : Dev nD) : S16x16.Idx → EReal := m ((c : Thread nD τ).loc main_arg5)
/-- Argument 6 on core `c`, as launched. -/
abbrev arg6 (c : Dev nD) : S16.Idx → EReal := m ((c : Thread nD τ).loc main_arg6)
/-- Argument 7 on core `c`, as launched. -/
abbrev arg7 (c : Dev nD) : S16x16.Idx → EReal := m ((c : Thread nD τ).loc main_arg7)
/-- Argument 8 on core `c`, as launched. -/
abbrev arg8 (c : Dev nD) : S16.Idx → EReal := m ((c : Thread nD τ).loc main_arg8)
/-- Argument 9 on core `c`, as launched. -/
abbrev arg9 (c : Dev nD) : S16x16.Idx → EReal := m ((c : Thread nD τ).loc main_arg9)
/-- Argument 10 on core `c`, as launched. -/
abbrev arg10 (c : Dev nD) : S16.Idx → EReal := m ((c : Thread nD τ).loc main_arg10)
/-- Argument 11 on core `c`, as launched. -/
abbrev arg11 (c : Dev nD) : S16x16.Idx → EReal := m ((c : Thread nD τ).loc main_arg11)
/-- Argument 12 on core `c`, as launched. -/
abbrev arg12 (c : Dev nD) : S16.Idx → EReal := m ((c : Thread nD τ).loc main_arg12)
/-- Argument 13 on core `c`, as launched. -/
abbrev arg13 (c : Dev nD) : S16x16.Idx → EReal := m ((c : Thread nD τ).loc main_arg13)
/-- Argument 14 on core `c`, as launched. -/
abbrev arg14 (c : Dev nD) : S16.Idx → EReal := m ((c : Thread nD τ).loc main_arg14)
/-- Argument 15 on core `c`, as launched. -/
abbrev arg15 (c : Dev nD) : S16x16.Idx → EReal := m ((c : Thread nD τ).loc main_arg15)
/-- Argument 16 on core `c`, as launched. -/
abbrev arg16 (c : Dev nD) : S16.Idx → EReal := m ((c : Thread nD τ).loc main_arg16)
/-- Argument 17 on core `c`, as launched. -/
abbrev arg17 (c : Dev nD) : S16x1.Idx → EReal := m ((c : Thread nD τ).loc main_arg17)
/-- Argument 18 on core `c`, as launched. -/
abbrev arg18 (c : Dev nD) : S1.Idx → EReal := m ((c : Thread nD τ).loc main_arg18)
/-- Argument 19 on core `c`, as launched. -/
abbrev arg19 (c : Dev nD) : S1.Idx → EReal := m ((c : Thread nD τ).loc main_arg19)

/-! ## The launched buffers as layouts of the arguments -/

/-- Buffer `%0` is argument 0 re-laid. -/
theorem V_v0 (c : Dev nD) : (V m c main_v0 : S1x2097152.Idx → EReal) = shapeCast S1x2097152 (arg0 m c) shapeCasts_S2097152x1_S1x2097152 := by
  show StableHlo.after hostOps0 (fun b => m (c, b)) (Proc.devRef .tc main_v0) = _
  after_results
  rfl

/-- Buffer `%1` is argument 1 re-laid. -/
theorem V_v1 (c : Dev nD) : (V m c main_v1 : S1x2097152.Idx → EReal) = shapeCast S1x2097152 (arg1 m c) shapeCasts_S2097152x1_S1x2097152 := by
  show StableHlo.after hostOps0 (fun b => m (c, b)) (Proc.devRef .tc main_v1) = _
  after_results
  rfl

/-- Buffer `%2` is argument 2 transposed. -/
theorem V_v2 (c : Dev nD) : (V m c main_v2 : S16x1.Idx → EReal) = transpose S16x1 [1, 0] (arg2 m c) transposes_S1x16_S16x1_1_0 := by
  show StableHlo.after hostOps0 (fun b => m (c, b)) (Proc.devRef .tc main_v2) = _
  after_results

/-- Buffer `%3` is argument 3 transposed. -/
theorem V_v3 (c : Dev nD) : (V m c main_v3 : S16x1.Idx → EReal) = transpose S16x1 [1, 0] (arg3 m c) transposes_S1x16_S16x1_1_0 := by
  show StableHlo.after hostOps0 (fun b => m (c, b)) (Proc.devRef .tc main_v3) = _
  after_results

/-- Buffer `%4` is argument 4 re-laid. -/
theorem V_v4 (c : Dev nD) : (V m c main_v4 : S16x1.Idx → EReal) = shapeCast S16x1 (arg4 m c) shapeCasts_S16_S16x1 := by
  show StableHlo.after hostOps0 (fun b => m (c, b)) (Proc.devRef .tc main_v4) = _
  after_results
  rfl

/-- Buffer `%5` is argument 5 transposed. -/
theorem V_v5 (c : Dev nD) : (V m c main_v5 : S16x16.Idx → EReal) = transpose S16x16 [1, 0] (arg5 m c) transposes_S16x16_S16x16_1_0 := by
  show StableHlo.after hostOps0 (fun b => m (c, b)) (Proc.devRef .tc main_v5) = _
  after_results

/-- Buffer `%6` is argument 6 re-laid. -/
theorem V_v6 (c : Dev nD) : (V m c main_v6 : S16x1.Idx → EReal) = shapeCast S16x1 (arg6 m c) shapeCasts_S16_S16x1 := by
  show StableHlo.after hostOps0 (fun b => m (c, b)) (Proc.devRef .tc main_v6) = _
  after_results
  rfl

/-- Buffer `%7` is argument 7 transposed. -/
theorem V_v7 (c : Dev nD) : (V m c main_v7 : S16x16.Idx → EReal) = transpose S16x16 [1, 0] (arg7 m c) transposes_S16x16_S16x16_1_0 := by
  show StableHlo.after hostOps0 (fun b => m (c, b)) (Proc.devRef .tc main_v7) = _
  after_results

/-- Buffer `%8` is argument 8 re-laid. -/
theorem V_v8 (c : Dev nD) : (V m c main_v8 : S16x1.Idx → EReal) = shapeCast S16x1 (arg8 m c) shapeCasts_S16_S16x1 := by
  show StableHlo.after hostOps0 (fun b => m (c, b)) (Proc.devRef .tc main_v8) = _
  after_results
  rfl

/-- Buffer `%9` is argument 9 transposed. -/
theorem V_v9 (c : Dev nD) : (V m c main_v9 : S16x16.Idx → EReal) = transpose S16x16 [1, 0] (arg9 m c) transposes_S16x16_S16x16_1_0 := by
  show StableHlo.after hostOps0 (fun b => m (c, b)) (Proc.devRef .tc main_v9) = _
  after_results

/-- Buffer `%10` is argument 10 re-laid. -/
theorem V_v10 (c : Dev nD) : (V m c main_v10 : S16x1.Idx → EReal) = shapeCast S16x1 (arg10 m c) shapeCasts_S16_S16x1 := by
  show StableHlo.after hostOps0 (fun b => m (c, b)) (Proc.devRef .tc main_v10) = _
  after_results
  rfl

/-- Buffer `%11` is argument 11 transposed. -/
theorem V_v11 (c : Dev nD) : (V m c main_v11 : S16x16.Idx → EReal) = transpose S16x16 [1, 0] (arg11 m c) transposes_S16x16_S16x16_1_0 := by
  show StableHlo.after hostOps0 (fun b => m (c, b)) (Proc.devRef .tc main_v11) = _
  after_results

/-- Buffer `%12` is argument 12 re-laid. -/
theorem V_v12 (c : Dev nD) : (V m c main_v12 : S16x1.Idx → EReal) = shapeCast S16x1 (arg12 m c) shapeCasts_S16_S16x1 := by
  show StableHlo.after hostOps0 (fun b => m (c, b)) (Proc.devRef .tc main_v12) = _
  after_results
  rfl

/-- Buffer `%13` is argument 13 transposed. -/
theorem V_v13 (c : Dev nD) : (V m c main_v13 : S16x16.Idx → EReal) = transpose S16x16 [1, 0] (arg13 m c) transposes_S16x16_S16x16_1_0 := by
  show StableHlo.after hostOps0 (fun b => m (c, b)) (Proc.devRef .tc main_v13) = _
  after_results

/-- Buffer `%14` is argument 14 re-laid. -/
theorem V_v14 (c : Dev nD) : (V m c main_v14 : S16x1.Idx → EReal) = shapeCast S16x1 (arg14 m c) shapeCasts_S16_S16x1 := by
  show StableHlo.after hostOps0 (fun b => m (c, b)) (Proc.devRef .tc main_v14) = _
  after_results
  rfl

/-- Buffer `%15` is argument 15 transposed. -/
theorem V_v15 (c : Dev nD) : (V m c main_v15 : S16x16.Idx → EReal) = transpose S16x16 [1, 0] (arg15 m c) transposes_S16x16_S16x16_1_0 := by
  show StableHlo.after hostOps0 (fun b => m (c, b)) (Proc.devRef .tc main_v15) = _
  after_results

/-- Buffer `%16` is argument 16 re-laid. -/
theorem V_v16 (c : Dev nD) : (V m c main_v16 : S16x1.Idx → EReal) = shapeCast S16x1 (arg16 m c) shapeCasts_S16_S16x1 := by
  show StableHlo.after hostOps0 (fun b => m (c, b)) (Proc.devRef .tc main_v16) = _
  after_results
  rfl

/-- Buffer `%17` is argument 17 transposed. -/
theorem V_v17 (c : Dev nD) : (V m c main_v17 : S1x16.Idx → EReal) = transpose S1x16 [1, 0] (arg17 m c) transposes_S16x1_S1x16_1_0 := by
  show StableHlo.after hostOps0 (fun b => m (c, b)) (Proc.devRef .tc main_v17) = _
  after_results

/-- Buffer `%18` is argument 18 re-laid. -/
theorem V_v18 (c : Dev nD) : (V m c main_v18 : S1x1.Idx → EReal) = shapeCast S1x1 (arg18 m c) shapeCasts_S1_S1x1 := by
  show StableHlo.after hostOps0 (fun b => m (c, b)) (Proc.devRef .tc main_v18) = _
  after_results
  rfl

/-- Buffer `%19` is argument 19 re-laid. -/
theorem V_v19 (c : Dev nD) : (V m c main_v19 : S1x1.Idx → EReal) = shapeCast S1x1 (arg19 m c) shapeCasts_S1_S1x1 := by
  show StableHlo.after hostOps0 (fun b => m (c, b)) (Proc.devRef .tc main_v19) = _
  after_results
  rfl

/-! ## Read at the coordinates the layers use -/

/-- The weight column `%2` at row `j` is the argument's one row at `j`. -/
theorem V_v2_at (c : Dev nD) (j : Fin 16) :
    (V m c main_v2 : S16x1.Idx → EReal) (ix2 j (0 : Fin 1)) = arg2 m c (ix2 (0 : Fin 1) j) := by
  rw [V_v2]; exact transpose_ix2_apply _ _ j (0 : Fin 1)

/-- The weight column `%3` at row `j` is the argument's one row at `j`. -/
theorem V_v3_at (c : Dev nD) (j : Fin 16) :
    (V m c main_v3 : S16x1.Idx → EReal) (ix2 j (0 : Fin 1)) = arg3 m c (ix2 (0 : Fin 1) j) := by
  rw [V_v3]; exact transpose_ix2_apply _ _ j (0 : Fin 1)

/-- The bias column `%4` at row `j` is the argument vector at `j`. -/
theorem V_v4_at (c : Dev nD) (j : Fin 16) :
    (V m c main_v4 : S16x1.Idx → EReal) (ix2 j (0 : Fin 1)) = arg4 m c (ix1 j) := by
  rw [V_v4]; exact Cert.ColumnLayout.shapeCast_a_a1_apply _ _ j (0 : Fin 1)

/-- The bias column `%6` at row `j` is the argument vector at `j`. -/
theorem V_v6_at (c : Dev nD) (j : Fin 16) :
    (V m c main_v6 : S16x1.Idx → EReal) (ix2 j (0 : Fin 1)) = arg6 m c (ix1 j) := by
  rw [V_v6]; exact Cert.ColumnLayout.shapeCast_a_a1_apply _ _ j (0 : Fin 1)

/-- The bias column `%8` at row `j` is the argument vector at `j`. -/
theorem V_v8_at (c : Dev nD) (j : Fin 16) :
    (V m c main_v8 : S16x1.Idx → EReal) (ix2 j (0 : Fin 1)) = arg8 m c (ix1 j) := by
  rw [V_v8]; exact Cert.ColumnLayout.shapeCast_a_a1_apply _ _ j (0 : Fin 1)

/-- The bias column `%10` at row `j` is the argument vector at `j`. -/
theorem V_v10_at (c : Dev nD) (j : Fin 16) :
    (V m c main_v10 : S16x1.Idx → EReal) (ix2 j (0 : Fin 1)) = arg10 m c (ix1 j) := by
  rw [V_v10]; exact Cert.ColumnLayout.shapeCast_a_a1_apply _ _ j (0 : Fin 1)

/-- The bias column `%12` at row `j` is the argument vector at `j`. -/
theorem V_v12_at (c : Dev nD) (j : Fin 16) :
    (V m c main_v12 : S16x1.Idx → EReal) (ix2 j (0 : Fin 1)) = arg12 m c (ix1 j) := by
  rw [V_v12]; exact Cert.ColumnLayout.shapeCast_a_a1_apply _ _ j (0 : Fin 1)

/-- The bias column `%14` at row `j` is the argument vector at `j`. -/
theorem V_v14_at (c : Dev nD) (j : Fin 16) :
    (V m c main_v14 : S16x1.Idx → EReal) (ix2 j (0 : Fin 1)) = arg14 m c (ix1 j) := by
  rw [V_v14]; exact Cert.ColumnLayout.shapeCast_a_a1_apply _ _ j (0 : Fin 1)

/-- The bias column `%16` at row `j` is the argument vector at `j`. -/
theorem V_v16_at (c : Dev nD) (j : Fin 16) :
    (V m c main_v16 : S16x1.Idx → EReal) (ix2 j (0 : Fin 1)) = arg16 m c (ix1 j) := by
  rw [V_v16]; exact Cert.ColumnLayout.shapeCast_a_a1_apply _ _ j (0 : Fin 1)

/-- The transposed weights `%5` at `(j, k)` are the argument at `(k, j)`. -/
theorem V_v5_at (c : Dev nD) (k j : Fin 16) :
    (V m c main_v5 : S16x16.Idx → EReal) (ix2 j k) = arg5 m c (ix2 k j) := by
  rw [V_v5]; exact transpose_ix2_apply _ _ j k

/-- The transposed weights `%7` at `(j, k)` are the argument at `(k, j)`. -/
theorem V_v7_at (c : Dev nD) (k j : Fin 16) :
    (V m c main_v7 : S16x16.Idx → EReal) (ix2 j k) = arg7 m c (ix2 k j) := by
  rw [V_v7]; exact transpose_ix2_apply _ _ j k

/-- The transposed weights `%9` at `(j, k)` are the argument at `(k, j)`. -/
theorem V_v9_at (c : Dev nD) (k j : Fin 16) :
    (V m c main_v9 : S16x16.Idx → EReal) (ix2 j k) = arg9 m c (ix2 k j) := by
  rw [V_v9]; exact transpose_ix2_apply _ _ j k

/-- The transposed weights `%11` at `(j, k)` are the argument at `(k, j)`. -/
theorem V_v11_at (c : Dev nD) (k j : Fin 16) :
    (V m c main_v11 : S16x16.Idx → EReal) (ix2 j k) = arg11 m c (ix2 k j) := by
  rw [V_v11]; exact transpose_ix2_apply _ _ j k

/-- The transposed weights `%13` at `(j, k)` are the argument at `(k, j)`. -/
theorem V_v13_at (c : Dev nD) (k j : Fin 16) :
    (V m c main_v13 : S16x16.Idx → EReal) (ix2 j k) = arg13 m c (ix2 k j) := by
  rw [V_v13]; exact transpose_ix2_apply _ _ j k

/-- The transposed weights `%15` at `(j, k)` are the argument at `(k, j)`. -/
theorem V_v15_at (c : Dev nD) (k j : Fin 16) :
    (V m c main_v15 : S16x16.Idx → EReal) (ix2 j k) = arg15 m c (ix2 k j) := by
  rw [V_v15]; exact transpose_ix2_apply _ _ j k

/-- The last layer's weight row `%17` at `k` is the argument column at `k`. -/
theorem V_v17_at (c : Dev nD) (k : Fin 16) :
    (V m c main_v17 : S1x16.Idx → EReal) (ix2 (0 : Fin 1) k) = arg17 m c (ix2 k (0 : Fin 1)) := by
  rw [V_v17]; exact transpose_ix2_apply _ _ (0 : Fin 1) k

/-- The one entry of `%18` is the argument's one entry. -/
theorem V_v18_at (c : Dev nD) :
    (V m c main_v18 : S1x1.Idx → EReal) (ix2 (0 : Fin 1) (0 : Fin 1)) = arg18 m c (ix1 (0 : Fin 1)) := by
  rw [V_v18]; exact Cert.ColumnLayout.shapeCast_a_a1_apply _ _ (0 : Fin 1) (0 : Fin 1)

/-- The one entry of `%19` is the argument's one entry. -/
theorem V_v19_at (c : Dev nD) :
    (V m c main_v19 : S1x1.Idx → EReal) (ix2 (0 : Fin 1) (0 : Fin 1)) = arg19 m c (ix1 (0 : Fin 1)) := by
  rw [V_v19]; exact Cert.ColumnLayout.shapeCast_a_a1_apply _ _ (0 : Fin 1) (0 : Fin 1)

end Cert.HostLayout

end
-- ==== Proof.KernelPoint.lean ====
/-
  The kernel's body read one collocation point at a time.

  The body keeps the points of its block along the columns of a `[16, 65536]` table of units, one unit per row — the
  transpose of the usual arrangement. One hidden layer multiplies a `[16, 16]` matrix `Wt` into the table (row `j` of the
  product at column `q` is `∑ k, Wt j k · L k q`), adds a bias column along every column, multiplies by the slope and applies
  `tanh`: column `q` of the new table depends on column `q` of the old one alone, and is the network's hidden layer on
  those sixteen units with `W k j = Wt j k`. The first layer is an outer product of a weight column with the row of
  coordinates; the last layer contracts a `[1, 16]` row with the table. So the stored row at column `q` is the network
  at the two coordinates found at column `q`.
-/
import proofs.«135203_j41609643164200_2_alg».proof.Proof.Gen.KernelIdeal.Skeleton
import proofs.«135203_j41609643164200_2_alg».proof.Proof.Mlp
import proofs.«135203_j41609643164200_2_alg».proof.Proof.LibDenseRows
import proofs.«135203_j41609643164200_2_alg».proof.Proof.LibColumnLayout
import Idealize.ShloMosaic.Lib.ValueLayout

noncomputable section

namespace Cert.KerPoint

open Cert.KernelIdeal Cert.KernelIdeal.Gen
open Idealize.ShloMosaic Idealize.ShloMosaic.ValueIdx
open scoped BigOperators

/-! ## The two matrix products -/

/-- The hidden layers' product keeps the left operand's row. -/
theorem lhs16_0 (j : S16x65536.Idx) (k : dot_S16x16_S16x65536_S16x65536_1_0_0_1_n_n.contr.Idx) :
    (dot_S16x16_S16x65536_S16x65536_1_0_0_1_n_n.lhsIdx j k (0 : Fin 2)).val = (j (0 : Fin 2)).val := by
  unfold DotDims.lhsIdx
  rw [dif_neg (show ¬(0 : Fin S16x16.rank) ∈ dot_S16x16_S16x65536_S16x65536_1_0_0_1_n_n.lhsBatch by decide), dif_pos (show (0 : Fin S16x16.rank) ∈ dot_S16x16_S16x65536_S16x65536_1_0_0_1_n_n.lhsNonContracting by decide)]
  rfl
/-- … and the right operand's column. -/
theorem rhs16_1 (j : S16x65536.Idx) (k : dot_S16x16_S16x65536_S16x65536_1_0_0_1_n_n.contr.Idx) :
    (dot_S16x16_S16x65536_S16x65536_1_0_0_1_n_n.rhsIdx j k (1 : Fin 2)).val = (j (1 : Fin 2)).val := by
  unfold DotDims.rhsIdx
  rw [dif_neg (show ¬(1 : Fin S16x65536.rank) ∈ dot_S16x16_S16x65536_S16x65536_1_0_0_1_n_n.rhsBatch by decide), dif_pos (show (1 : Fin S16x65536.rank) ∈ dot_S16x16_S16x65536_S16x65536_1_0_0_1_n_n.rhsNonContracting by decide)]
  rfl
/-- The last layer's product keeps the left operand's one row. -/
theorem lhs1_0 (j : S1x65536.Idx) (k : dot_S1x16_S16x65536_S1x65536_1_0_0_1_n_n.contr.Idx) :
    (dot_S1x16_S16x65536_S1x65536_1_0_0_1_n_n.lhsIdx j k (0 : Fin 2)).val = (j (0 : Fin 2)).val := by
  unfold DotDims.lhsIdx
  rw [dif_neg (show ¬(0 : Fin S1x16.rank) ∈ dot_S1x16_S16x65536_S1x65536_1_0_0_1_n_n.lhsBatch by decide), dif_pos (show (0 : Fin S1x16.rank) ∈ dot_S1x16_S16x65536_S1x65536_1_0_0_1_n_n.lhsNonContracting by decide)]
  rfl
/-- … and the right operand's column. -/
theorem rhs1_1 (j : S1x65536.Idx) (k : dot_S1x16_S16x65536_S1x65536_1_0_0_1_n_n.contr.Idx) :
    (dot_S1x16_S16x65536_S1x65536_1_0_0_1_n_n.rhsIdx j k (1 : Fin 2)).val = (j (1 : Fin 2)).val := by
  unfold DotDims.rhsIdx
  rw [dif_neg (show ¬(1 : Fin S16x65536.rank) ∈ dot_S1x16_S16x65536_S1x65536_1_0_0_1_n_n.rhsBatch by decide), dif_pos (show (1 : Fin S16x65536.rank) ∈ dot_S1x16_S16x65536_S1x65536_1_0_0_1_n_n.rhsNonContracting by decide)]
  rfl

/-- A `[16, 16]` matrix multiplied into the table of units, into a zero accumulator. -/
def mm (Wt : FVec Ideal S16x16 .f32) (L : FVec Ideal S16x65536 .f32) : FVec Ideal S16x65536 .f32 :=
  matmul dot_S16x16_S16x65536_S16x65536_1_0_0_1_n_n (some .fp32) (shapeCast S16x16 Wt shapeCasts_S16x16_S16x16) L (constant S16x65536 .f32 0x00000000#32)

/-- Row `j`, column `q` of that product. -/
theorem mm_apply (Wt : FVec Ideal S16x16 .f32) (L : FVec Ideal S16x65536 .f32) (j : Fin 16) (q : Fin 65536) :
    mm Wt L (ix2 j q) = ∑ k : Fin 16, Wt (ix2 j k) * L (ix2 k q) := by
  unfold mm
  rw [shapeCast_self]
  exact (Ideal.matmul_constant_zero_apply dot_S16x16_S16x65536_S16x65536_1_0_0_1_n_n (some .fp32) Wt L (ix2 j q)).trans
    (Cert.DenseRows.sum_contr_plain dot_S16x16_S16x65536_S16x65536_1_0_0_1_n_n rfl rfl rfl rfl lhs16_0 rhs16_1 Wt L j q)

/-- A bias column laid along every column of the table reads, at `(j, q)`, the column's entry of row `j`. -/
theorem biasCol_apply (b : FVec Ideal S16x1 .f32) (j : Fin 16) (q : Fin 65536) :
    broadcastTo S16x65536 (shapeCast S16x1 b shapeCasts_S16x1_S16x1) broadcasts_S16x1_S16x65536 (ix2 j q) = b (ix2 j (0 : Fin 1)) := by
  rw [shapeCast_self]
  exact Cert.ColumnLayout.broadcastTo_a1_ab_apply b broadcasts_S16x1_S16x65536 j q

/-- The row of coordinates laid along every row of the table reads, at `(j, q)`, the row's entry at `q`. -/
theorem coordRow_apply (x : FVec Ideal S1x65536 .f32) (j : Fin 16) (q : Fin 65536) :
    broadcastTo S16x65536 (shapeCast S1x65536 x shapeCasts_S1x65536_S1x65536) broadcasts_S1x65536_S16x65536 (ix2 j q) = x (ix2 (0 : Fin 1) q) := by
  rw [shapeCast_self]
  exact broadcastTo_1b_ab_apply x broadcasts_S1x65536_S16x65536 j q

/-- The kernel's `tanh` of a table, read at an index. -/
theorem tanh_apply {s : Shape} (v : FVec Ideal s .f32) (i : s.Idx) : tanh v i = Ideal.tanh (v i) := rfl

/-! ## The layers -/

/-- A table of sums, plus the bias column, times the slope, through `tanh`. -/
def act (a : Ideal .f32) (pre : FVec Ideal S16x65536 .f32) (b : FVec Ideal S16x1 .f32) : FVec Ideal S16x65536 .f32 :=
  tanh (mulf (broadcast S16x65536 a) (addf pre (broadcastTo S16x65536 (shapeCast S16x1 b shapeCasts_S16x1_S16x1) broadcasts_S16x1_S16x65536)))

/-- Column `q` of one hidden layer is the network's hidden layer on column `q` of the table below. -/
theorem act_mm_apply (a : Ideal .f32) (Wt : FVec Ideal S16x16 .f32) (L : FVec Ideal S16x65536 .f32) (b : FVec Ideal S16x1 .f32)
    (j : Fin 16) (q : Fin 65536) :
    act a (mm Wt L) b (ix2 j q)
      = Cert.Mlp.hidden a (fun k j => Wt (ix2 j k)) (fun j => b (ix2 j (0 : Fin 1))) (fun k => L (ix2 k q)) j := by
  unfold act
  rw [tanh_apply, mulf_apply, addf_apply, broadcast_apply, biasCol_apply, mm_apply]
  rfl

/-- The first layer: the two weight columns times the two rows of coordinates, plus the bias column, times the slope,
    through `tanh`. -/
def firstK (a : Ideal .f32) (x0 x1 : FVec Ideal S1x65536 .f32) (w1 w2 b : FVec Ideal S16x1 .f32) : FVec Ideal S16x65536 .f32 :=
  tanh (mulf (broadcast S16x65536 a)
    (addf (addf (mulf (broadcastTo S16x65536 (shapeCast S16x1 w1 shapeCasts_S16x1_S16x1) broadcasts_S16x1_S16x65536)
                      (broadcastTo S16x65536 (shapeCast S1x65536 x0 shapeCasts_S1x65536_S1x65536) broadcasts_S1x65536_S16x65536))
                (mulf (broadcastTo S16x65536 (shapeCast S16x1 w2 shapeCasts_S16x1_S16x1) broadcasts_S16x1_S16x65536)
                      (broadcastTo S16x65536 (shapeCast S1x65536 x1 shapeCasts_S1x65536_S1x65536) broadcasts_S1x65536_S16x65536)))
          (broadcastTo S16x65536 (shapeCast S16x1 b shapeCasts_S16x1_S16x1) broadcasts_S16x1_S16x65536)))

/-- Column `q` of the first layer is the network's first layer at the two coordinates of column `q`. -/
theorem firstK_apply (a : Ideal .f32) (x0 x1 : FVec Ideal S1x65536 .f32) (w1 w2 b : FVec Ideal S16x1 .f32) (j : Fin 16) (q : Fin 65536) :
    firstK a x0 x1 w1 w2 b (ix2 j q)
      = Cert.Mlp.first a (fun j => w1 (ix2 j (0 : Fin 1))) (fun j => w2 (ix2 j (0 : Fin 1))) (fun j => b (ix2 j (0 : Fin 1)))
          (x0 (ix2 (0 : Fin 1) q)) (x1 (ix2 (0 : Fin 1) q)) j := by
  unfold firstK
  rw [tanh_apply, mulf_apply, addf_apply, addf_apply, mulf_apply, mulf_apply, broadcast_apply,
    biasCol_apply, biasCol_apply, biasCol_apply, coordRow_apply, coordRow_apply]
  rfl

/-- The last layer: a `[1, 16]` row multiplied into the table, plus the one output bias along the row. -/
def lastK (w : FVec Ideal S1x16 .f32) (b : FVec Ideal S1x1 .f32) (L : FVec Ideal S16x65536 .f32) : FVec Ideal S1x65536 .f32 :=
  addf (matmul dot_S1x16_S16x65536_S1x65536_1_0_0_1_n_n (some .fp32) (shapeCast S1x16 w shapeCasts_S1x16_S1x16) L (constant S1x65536 .f32 0x00000000#32))
    (broadcastTo S1x65536 (shapeCast S1x1 b shapeCasts_S1x1_S1x1) broadcasts_S1x1_S1x65536)

/-- The stored row at column `q` is the network's last layer on column `q` of the table. -/
theorem lastK_apply (w : FVec Ideal S1x16 .f32) (b : FVec Ideal S1x1 .f32) (L : FVec Ideal S16x65536 .f32) (u : Fin 1) (q : Fin 65536) :
    lastK w b L (ix2 u q)
      = Cert.Mlp.last (fun k => w (ix2 (0 : Fin 1) k)) (b (ix2 (0 : Fin 1) (0 : Fin 1))) (fun k => L (ix2 k q)) := by
  have hu : u = 0 := Subsingleton.elim _ _
  subst hu
  unfold lastK
  rw [addf_apply, shapeCast_self, shapeCast_self,
    Cert.ColumnLayout.broadcastTo_a1_ab_apply b broadcasts_S1x1_S1x65536 (0 : Fin 1) q]
  refine congrArg (· + b (ix2 (0 : Fin 1) (0 : Fin 1))) ?_
  exact (Ideal.matmul_constant_zero_apply dot_S1x16_S16x65536_S1x65536_1_0_0_1_n_n (some .fp32) w L (ix2 (0 : Fin 1) q)).trans
    (Cert.DenseRows.sum_contr_plain dot_S1x16_S16x65536_S1x65536_1_0_0_1_n_n rfl rfl rfl rfl lhs1_0 rhs1_1 w L (0 : Fin 1) q)

/-! ## The body's stored value -/

/-- The slope the body extracts from its `[1, 1]` block. -/
theorem slope_eq (x19 : FVec Ideal S1x1 .f32) : k0_pay2 (F := Ideal) x19 = x19 (ix2 (0 : Fin 1) (0 : Fin 1)) := by
  unfold k0_pay2 extractAt
  exact congrArg x19 (funext fun d => Fin.ext (by match d with | ⟨0, _⟩ => rfl | ⟨1, _⟩ => rfl))

/-- The weights as the body finds them in its blocks: a matrix block holds the TRANSPOSE of a layer's weights, a bias is a
    column, the last layer's weights a row. -/
def ofBlocks (x2 x3 x4 : FVec Ideal S16x1 .f32) (x5 : FVec Ideal S16x16 .f32) (x6 : FVec Ideal S16x1 .f32)
    (x7 : FVec Ideal S16x16 .f32) (x8 : FVec Ideal S16x1 .f32) (x9 : FVec Ideal S16x16 .f32) (x10 : FVec Ideal S16x1 .f32)
    (x11 : FVec Ideal S16x16 .f32) (x12 : FVec Ideal S16x1 .f32) (x13 : FVec Ideal S16x16 .f32) (x14 : FVec Ideal S16x1 .f32)
    (x15 : FVec Ideal S16x16 .f32) (x16 : FVec Ideal S16x1 .f32) (x17 : FVec Ideal S1x16 .f32) (x18 x19 : FVec Ideal S1x1 .f32) :
    Cert.Mlp.Weights where
  a := x19 (ix2 (0 : Fin 1) (0 : Fin 1))
  w1 j := x2 (ix2 j (0 : Fin 1))
  w2 j := x3 (ix2 j (0 : Fin 1))
  b1 j := x4 (ix2 j (0 : Fin 1))
  W3 k j := x5 (ix2 j k)
  B3 j := x6 (ix2 j (0 : Fin 1))
  W4 k j := x7 (ix2 j k)
  B4 j := x8 (ix2 j (0 : Fin 1))
  W5 k j := x9 (ix2 j k)
  B5 j := x10 (ix2 j (0 : Fin 1))
  W6 k j := x11 (ix2 j k)
  B6 j := x12 (ix2 j (0 : Fin 1))
  W7 k j := x13 (ix2 j k)
  B7 j := x14 (ix2 j (0 : Fin 1))
  W8 k j := x15 (ix2 j k)
  B8 j := x16 (ix2 j (0 : Fin 1))
  w9 k := x17 (ix2 (0 : Fin 1) k)
  b9 := x18 (ix2 (0 : Fin 1) (0 : Fin 1))

section body

variable (x0 x1 : FVec Ideal S1x65536 .f32) (x2 x3 x4 : FVec Ideal S16x1 .f32) (x5 : FVec Ideal S16x16 .f32) (x6 : FVec Ideal S16x1 .f32)
    (x7 : FVec Ideal S16x16 .f32) (x8 : FVec Ideal S16x1 .f32) (x9 : FVec Ideal S16x16 .f32) (x10 : FVec Ideal S16x1 .f32)
    (x11 : FVec Ideal S16x16 .f32) (x12 : FVec Ideal S16x1 .f32) (x13 : FVec Ideal S16x16 .f32) (x14 : FVec Ideal S16x1 .f32)
    (x15 : FVec Ideal S16x16 .f32) (x16 : FVec Ideal S16x1 .f32) (x17 : FVec Ideal S1x16 .f32) (x18 x19 : FVec Ideal S1x1 .f32)

/-- The body's first stretch: the first layer, one hidden layer, and the next layer's product. -/
theorem pay3_eq : k0_pay3 (F := Ideal) x0 x1 x19 x2 x3 x4 x5 x6 x7
    = mm x7 (act (k0_pay2 x19) (mm x5 (firstK (k0_pay2 x19) x0 x1 x2 x3 x4)) x6) := rfl

/-- The body's second stretch: four hidden layers and the next layer's product. -/
theorem pay4_eq (a : Ideal .f32) (v36 : FVec Ideal S16x65536 .f32) : k0_pay4 (F := Ideal) a v36 x8 x9 x10 x11 x12 x13 x14 x15
    = mm x15 (act a (mm x13 (act a (mm x11 (act a (mm x9 (act a v36 x8)) x10)) x12)) x14) := rfl

/-- The body's last stretch: the sixth hidden layer and the output. -/
theorem pay1_eq (a : Ideal .f32) (v76 : FVec Ideal S16x65536 .f32) : k0_pay1 (F := Ideal) a v76 x16 x17 x18
    = lastK x17 x18 (act a v76 x16) := rfl

/-- What the body stores, at column `q`: the network, with the weights found in the blocks, at the two coordinates found
    at column `q` of the two coordinate blocks. -/
theorem stored_apply (u : Fin 1) (q : Fin 65536) :
    k0_pay1 (F := Ideal) (k0_pay2 x19) (k0_pay4 (k0_pay2 x19) (k0_pay3 x0 x1 x19 x2 x3 x4 x5 x6 x7) x8 x9 x10 x11 x12 x13 x14 x15) x16 x17 x18 (ix2 u q)
      = Cert.Mlp.net (ofBlocks x2 x3 x4 x5 x6 x7 x8 x9 x10 x11 x12 x13 x14 x15 x16 x17 x18 x19) (x0 (ix2 (0 : Fin 1) q)) (x1 (ix2 (0 : Fin 1) q)) := by
  rw [pay1_eq, pay4_eq, pay3_eq, slope_eq, lastK_apply]
  have hcol : ∀ (Wt : FVec Ideal S16x16 .f32) (L : FVec Ideal S16x65536 .f32) (b : FVec Ideal S16x1 .f32),
      (fun k => act (x19 (ix2 (0 : Fin 1) (0 : Fin 1))) (mm Wt L) b (ix2 k q))
        = Cert.Mlp.hidden (x19 (ix2 (0 : Fin 1) (0 : Fin 1))) (fun k j => Wt (ix2 j k)) (fun j => b (ix2 j (0 : Fin 1))) (fun k => L (ix2 k q)) :=
    fun Wt L b => funext fun j => act_mm_apply _ Wt L b j q
  have hfirst : (fun k => firstK (x19 (ix2 (0 : Fin 1) (0 : Fin 1))) x0 x1 x2 x3 x4 (ix2 k q))
      = Cert.Mlp.first (x19 (ix2 (0 : Fin 1) (0 : Fin 1))) (fun j => x2 (ix2 j (0 : Fin 1))) (fun j => x3 (ix2 j (0 : Fin 1)))
          (fun j => x4 (ix2 j (0 : Fin 1))) (x0 (ix2 (0 : Fin 1) q)) (x1 (ix2 (0 : Fin 1) q)) :=
    funext fun j => firstK_apply _ x0 x1 x2 x3 x4 j q
  rw [hcol, hcol, hcol, hcol, hcol, hcol, hfirst]
  rfl

end body

/-- The weights found in the blocks are the weights of the argument arrays, when each block entry is the argument entry
    it was laid out from. -/
theorem ofBlocks_eq_ofArgs
    (x2 x3 x4 : FVec Ideal S16x1 .f32) (x5 : FVec Ideal S16x16 .f32) (x6 : FVec Ideal S16x1 .f32)
    (x7 : FVec Ideal S16x16 .f32) (x8 : FVec Ideal S16x1 .f32) (x9 : FVec Ideal S16x16 .f32) (x10 : FVec Ideal S16x1 .f32)
    (x11 : FVec Ideal S16x16 .f32) (x12 : FVec Ideal S16x1 .f32) (x13 : FVec Ideal S16x16 .f32) (x14 : FVec Ideal S16x1 .f32)
    (x15 : FVec Ideal S16x16 .f32) (x16 : FVec Ideal S16x1 .f32) (x17 : FVec Ideal S1x16 .f32) (x18 x19 : FVec Ideal S1x1 .f32)
    (A2 A3 : FVec Ideal S1x16 .f32) (A4 : FVec Ideal S16 .f32) (A5 : FVec Ideal S16x16 .f32) (A6 : FVec Ideal S16 .f32)
    (A7 : FVec Ideal S16x16 .f32) (A8 : FVec Ideal S16 .f32) (A9 : FVec Ideal S16x16 .f32) (A10 : FVec Ideal S16 .f32)
    (A11 : FVec Ideal S16x16 .f32) (A12 : FVec Ideal S16 .f32) (A13 : FVec Ideal S16x16 .f32) (A14 : FVec Ideal S16 .f32)
    (A15 : FVec Ideal S16x16 .f32) (A16 : FVec Ideal S16 .f32) (A17 : FVec Ideal S16x1 .f32) (A18 A19 : FVec Ideal S1 .f32)
    (h2 : ∀ j : Fin 16, x2 (ix2 j (0 : Fin 1)) = A2 (ix2 (0 : Fin 1) j))
    (h3 : ∀ j : Fin 16, x3 (ix2 j (0 : Fin 1)) = A3 (ix2 (0 : Fin 1) j))
    (h4 : ∀ j : Fin 16, x4 (ix2 j (0 : Fin 1)) = A4 (ix1 j))
    (h5 : ∀ k j : Fin 16, x5 (ix2 j k) = A5 (ix2 k j)) (h6 : ∀ j : Fin 16, x6 (ix2 j (0 : Fin 1)) = A6 (ix1 j))
    (h7 : ∀ k j : Fin 16, x7 (ix2 j k) = A7 (ix2 k j)) (h8 : ∀ j : Fin 16, x8 (ix2 j (0 : Fin 1)) = A8 (ix1 j))
    (h9 : ∀ k j : Fin 16, x9 (ix2 j k) = A9 (ix2 k j)) (h10 : ∀ j : Fin 16, x10 (ix2 j (0 : Fin 1)) = A10 (ix1 j))
    (h11 : ∀ k j : Fin 16, x11 (ix2 j k) = A11 (ix2 k j)) (h12 : ∀ j : Fin 16, x12 (ix2 j (0 : Fin 1)) = A12 (ix1 j))
    (h13 : ∀ k j : Fin 16, x13 (ix2 j k) = A13 (ix2 k j)) (h14 : ∀ j : Fin 16, x14 (ix2 j (0 : Fin 1)) = A14 (ix1 j))
    (h15 : ∀ k j : Fin 16, x15 (ix2 j k) = A15 (ix2 k j)) (h16 : ∀ j : Fin 16, x16 (ix2 j (0 : Fin 1)) = A16 (ix1 j))
    (h17 : ∀ k : Fin 16, x17 (ix2 (0 : Fin 1) k) = A17 (ix2 k (0 : Fin 1)))
    (h18 : x18 (ix2 (0 : Fin 1) (0 : Fin 1)) = A18 (ix1 (0 : Fin 1)))
    (h19 : x19 (ix2 (0 : Fin 1) (0 : Fin 1)) = A19 (ix1 (0 : Fin 1))) :
    ofBlocks x2 x3 x4 x5 x6 x7 x8 x9 x10 x11 x12 x13 x14 x15 x16 x17 x18 x19
      = Cert.Mlp.ofArgs A2 A3 A4 A5 A6 A7 A8 A9 A10 A11 A12 A13 A14 A15 A16 A17 A18 A19 := by
  unfold ofBlocks Cert.Mlp.ofArgs
  simp only [h2, h3, h4, h5, h6, h7, h8, h9, h10, h11, h12, h13, h14, h15, h16, h17, h18, h19]

end Cert.KerPoint

end
-- ==== Proof.KernelArray.lean ====
/-
  From the body's stored row to the program's result.

  The output array `[1, N]` is cut into 32 blocks of 65536 columns; grid point `t` stages columns `t · 65536 …` of the two
  coordinate rows, finds every weight block whole (their block index never moves), and writes its stored row back to the
  same columns. A stored entry at local column `q` is the network at the coordinates of global column `t · 65536 + q`, with
  the weights of the argument arrays. The 32 blocks tile the array, so the array ends as ONE function of its column: the
  network at that column's coordinates. The program's last line re-lays `[1, N]` as `[N, 1]`; the coordinate rows were
  themselves `[N, 1]` columns re-laid as `[1, N]`, and re-laying there and back is the identity, so the result at row `n`
  is the network at row `n` of the two coordinate arguments.
-/
import proofs.«135203_j41609643164200_2_alg».proof.Proof.HostLayout
import proofs.«135203_j41609643164200_2_alg».proof.Proof.KernelPoint
import proofs.«135203_j41609643164200_2_alg».proof.Proof.LibUnitLayout
import Idealize.ShloMosaic.Lib.Pipeline.Value
import Idealize.ShloMosaic.Lib.StableHlo.Run

set_option maxRecDepth 16384

noncomputable section

namespace Cert.KerArray

open Cert.KernelIdeal Cert.KernelIdeal.Gen Cert.HostLayout
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The functions the arrays end as -/

/-- The network's weights read off core `c`'s argument arrays. -/
def weights (c : Dev nD) : Cert.Mlp.Weights :=
  Cert.Mlp.ofArgs (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c)

/-- What the region's output array `[1, N]` ends holding: at each column, the network at the coordinates the two
    launched coordinate rows hold at that column. -/
def lanes (c : Dev nD) : S1x2097152.Idx → EReal := fun i =>
  Cert.Mlp.net (weights m c) ((V m c main_v0 : S1x2097152.Idx → EReal) i) ((V m c main_v1 : S1x2097152.Idx → EReal) i)

/-- The program's result `[N, 1]`: at each row, the network at that row of the two coordinate arguments. -/
def result (c : Dev nD) : S2097152x1.Idx → EReal := fun i =>
  Cert.Mlp.net (weights m c) (arg0 m c i) (arg1 m c i)

/-! ## Which block each point stages -/

/-- The coordinate rows and the output move one block of columns per grid point. -/
theorem idx_moving : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_20.index t (0 : Fin 2) = 0 ∧ win0_20.index t (1 : Fin 2) = t.val :=
  (by decide +kernel : ∀ t : Fin grid0.N, _)

/-- Window 2's block never moves. -/
theorem idx_2 : ∀ t : Fin cfg0.N, win0_2.index t (0 : Fin 2) = 0 ∧ win0_2.index t (1 : Fin 2) = 0 :=
  (by decide +kernel : ∀ t : Fin grid0.N, _)
/-- Window 3's block never moves. -/
theorem idx_3 : ∀ t : Fin cfg0.N, win0_3.index t (0 : Fin 2) = 0 ∧ win0_3.index t (1 : Fin 2) = 0 :=
  (by decide +kernel : ∀ t : Fin grid0.N, _)
/-- Window 4's block never moves. -/
theorem idx_4 : ∀ t : Fin cfg0.N, win0_4.index t (0 : Fin 2) = 0 ∧ win0_4.index t (1 : Fin 2) = 0 :=
  (by decide +kernel : ∀ t : Fin grid0.N, _)
/-- Window 5's block never moves. -/
theorem idx_5 : ∀ t : Fin cfg0.N, win0_5.index t (0 : Fin 2) = 0 ∧ win0_5.index t (1 : Fin 2) = 0 :=
  (by decide +kernel : ∀ t : Fin grid0.N, _)
/-- Window 6's block never moves. -/
theorem idx_6 : ∀ t : Fin cfg0.N, win0_6.index t (0 : Fin 2) = 0 ∧ win0_6.index t (1 : Fin 2) = 0 :=
  (by decide +kernel : ∀ t : Fin grid0.N, _)
/-- Window 7's block never moves. -/
theorem idx_7 : ∀ t : Fin cfg0.N, win0_7.index t (0 : Fin 2) = 0 ∧ win0_7.index t (1 : Fin 2) = 0 :=
  (by decide +kernel : ∀ t : Fin grid0.N, _)
/-- Window 8's block never moves. -/
theorem idx_8 : ∀ t : Fin cfg0.N, win0_8.index t (0 : Fin 2) = 0 ∧ win0_8.index t (1 : Fin 2) = 0 :=
  (by decide +kernel : ∀ t : Fin grid0.N, _)
/-- Window 9's block never moves. -/
theorem idx_9 : ∀ t : Fin cfg0.N, win0_9.index t (0 : Fin 2) = 0 ∧ win0_9.index t (1 : Fin 2) = 0 :=
  (by decide +kernel : ∀ t : Fin grid0.N, _)
/-- Window 10's block never moves. -/
theorem idx_10 : ∀ t : Fin cfg0.N, win0_10.index t (0 : Fin 2) = 0 ∧ win0_10.index t (1 : Fin 2) = 0 :=
  (by decide +kernel : ∀ t : Fin grid0.N, _)
/-- Window 11's block never moves. -/
theorem idx_11 : ∀ t : Fin cfg0.N, win0_11.index t (0 : Fin 2) = 0 ∧ win0_11.index t (1 : Fin 2) = 0 :=
  (by decide +kernel : ∀ t : Fin grid0.N, _)
/-- Window 12's block never moves. -/
theorem idx_12 : ∀ t : Fin cfg0.N, win0_12.index t (0 : Fin 2) = 0 ∧ win0_12.index t (1 : Fin 2) = 0 :=
  (by decide +kernel : ∀ t : Fin grid0.N, _)
/-- Window 13's block never moves. -/
theorem idx_13 : ∀ t : Fin cfg0.N, win0_13.index t (0 : Fin 2) = 0 ∧ win0_13.index t (1 : Fin 2) = 0 :=
  (by decide +kernel : ∀ t : Fin grid0.N, _)
/-- Window 14's block never moves. -/
theorem idx_14 : ∀ t : Fin cfg0.N, win0_14.index t (0 : Fin 2) = 0 ∧ win0_14.index t (1 : Fin 2) = 0 :=
  (by decide +kernel : ∀ t : Fin grid0.N, _)
/-- Window 15's block never moves. -/
theorem idx_15 : ∀ t : Fin cfg0.N, win0_15.index t (0 : Fin 2) = 0 ∧ win0_15.index t (1 : Fin 2) = 0 :=
  (by decide +kernel : ∀ t : Fin grid0.N, _)
/-- Window 16's block never moves. -/
theorem idx_16 : ∀ t : Fin cfg0.N, win0_16.index t (0 : Fin 2) = 0 ∧ win0_16.index t (1 : Fin 2) = 0 :=
  (by decide +kernel : ∀ t : Fin grid0.N, _)
/-- Window 17's block never moves. -/
theorem idx_17 : ∀ t : Fin cfg0.N, win0_17.index t (0 : Fin 2) = 0 ∧ win0_17.index t (1 : Fin 2) = 0 :=
  (by decide +kernel : ∀ t : Fin grid0.N, _)
/-- Window 18's block never moves. -/
theorem idx_18 : ∀ t : Fin cfg0.N, win0_18.index t (0 : Fin 2) = 0 ∧ win0_18.index t (1 : Fin 2) = 0 :=
  (by decide +kernel : ∀ t : Fin grid0.N, _)
/-- Window 19's block never moves. -/
theorem idx_19 : ∀ t : Fin cfg0.N, win0_19.index t (0 : Fin 2) = 0 ∧ win0_19.index t (1 : Fin 2) = 0 :=
  (by decide +kernel : ∀ t : Fin grid0.N, _)

/-! ## What each staged block holds -/

/-- Window 2's block at any point is the whole launched buffer `%2`. -/
theorem blk_2 (c : Dev nD) (t : Fin cfg0.N) (y : S16x1.Idx) : iblk m c 2 t y = (V m c main_v2 : S16x1.Idx → EReal) y := by
  show V m c main_v2 (((cfg0.win 2).blk t).view.emb y) = V m c main_v2 y
  refine congrArg (V m c main_v2) ?_
  funext a; apply Fin.ext
  obtain ⟨e0, e1⟩ := idx_2 t
  match a with
  | ⟨0, _⟩ => show win0_2.index t (0 : Fin 2) * 16 + 1 * (y 0).val = (y 0).val; omega
  | ⟨1, _⟩ => show win0_2.index t (1 : Fin 2) * 1 + 1 * (y 1).val = (y 1).val; omega

/-- Window 3's block at any point is the whole launched buffer `%3`. -/
theorem blk_3 (c : Dev nD) (t : Fin cfg0.N) (y : S16x1.Idx) : iblk m c 3 t y = (V m c main_v3 : S16x1.Idx → EReal) y := by
  show V m c main_v3 (((cfg0.win 3).blk t).view.emb y) = V m c main_v3 y
  refine congrArg (V m c main_v3) ?_
  funext a; apply Fin.ext
  obtain ⟨e0, e1⟩ := idx_3 t
  match a with
  | ⟨0, _⟩ => show win0_3.index t (0 : Fin 2) * 16 + 1 * (y 0).val = (y 0).val; omega
  | ⟨1, _⟩ => show win0_3.index t (1 : Fin 2) * 1 + 1 * (y 1).val = (y 1).val; omega

/-- Window 4's block at any point is the whole launched buffer `%4`. -/
theorem blk_4 (c : Dev nD) (t : Fin cfg0.N) (y : S16x1.Idx) : iblk m c 4 t y = (V m c main_v4 : S16x1.Idx → EReal) y := by
  show V m c main_v4 (((cfg0.win 4).blk t).view.emb y) = V m c main_v4 y
  refine congrArg (V m c main_v4) ?_
  funext a; apply Fin.ext
  obtain ⟨e0, e1⟩ := idx_4 t
  match a with
  | ⟨0, _⟩ => show win0_4.index t (0 : Fin 2) * 16 + 1 * (y 0).val = (y 0).val; omega
  | ⟨1, _⟩ => show win0_4.index t (1 : Fin 2) * 1 + 1 * (y 1).val = (y 1).val; omega

/-- Window 5's block at any point is the whole launched buffer `%5`. -/
theorem blk_5 (c : Dev nD) (t : Fin cfg0.N) (y : S16x16.Idx) : iblk m c 5 t y = (V m c main_v5 : S16x16.Idx → EReal) y := by
  show V m c main_v5 (((cfg0.win 5).blk t).view.emb y) = V m c main_v5 y
  refine congrArg (V m c main_v5) ?_
  funext a; apply Fin.ext
  obtain ⟨e0, e1⟩ := idx_5 t
  match a with
  | ⟨0, _⟩ => show win0_5.index t (0 : Fin 2) * 16 + 1 * (y 0).val = (y 0).val; omega
  | ⟨1, _⟩ => show win0_5.index t (1 : Fin 2) * 16 + 1 * (y 1).val = (y 1).val; omega

/-- Window 6's block at any point is the whole launched buffer `%6`. -/
theorem blk_6 (c : Dev nD) (t : Fin cfg0.N) (y : S16x1.Idx) : iblk m c 6 t y = (V m c main_v6 : S16x1.Idx → EReal) y := by
  show V m c main_v6 (((cfg0.win 6).blk t).view.emb y) = V m c main_v6 y
  refine congrArg (V m c main_v6) ?_
  funext a; apply Fin.ext
  obtain ⟨e0, e1⟩ := idx_6 t
  match a with
  | ⟨0, _⟩ => show win0_6.index t (0 : Fin 2) * 16 + 1 * (y 0).val = (y 0).val; omega
  | ⟨1, _⟩ => show win0_6.index t (1 : Fin 2) * 1 + 1 * (y 1).val = (y 1).val; omega

/-- Window 7's block at any point is the whole launched buffer `%7`. -/
theorem blk_7 (c : Dev nD) (t : Fin cfg0.N) (y : S16x16.Idx) : iblk m c 7 t y = (V m c main_v7 : S16x16.Idx → EReal) y := by
  show V m c main_v7 (((cfg0.win 7).blk t).view.emb y) = V m c main_v7 y
  refine congrArg (V m c main_v7) ?_
  funext a; apply Fin.ext
  obtain ⟨e0, e1⟩ := idx_7 t
  match a with
  | ⟨0, _⟩ => show win0_7.index t (0 : Fin 2) * 16 + 1 * (y 0).val = (y 0).val; omega
  | ⟨1, _⟩ => show win0_7.index t (1 : Fin 2) * 16 + 1 * (y 1).val = (y 1).val; omega

/-- Window 8's block at any point is the whole launched buffer `%8`. -/
theorem blk_8 (c : Dev nD) (t : Fin cfg0.N) (y : S16x1.Idx) : iblk m c 8 t y = (V m c main_v8 : S16x1.Idx → EReal) y := by
  show V m c main_v8 (((cfg0.win 8).blk t).view.emb y) = V m c main_v8 y
  refine congrArg (V m c main_v8) ?_
  funext a; apply Fin.ext
  obtain ⟨e0, e1⟩ := idx_8 t
  match a with
  | ⟨0, _⟩ => show win0_8.index t (0 : Fin 2) * 16 + 1 * (y 0).val = (y 0).val; omega
  | ⟨1, _⟩ => show win0_8.index t (1 : Fin 2) * 1 + 1 * (y 1).val = (y 1).val; omega

/-- Window 9's block at any point is the whole launched buffer `%9`. -/
theorem blk_9 (c : Dev nD) (t : Fin cfg0.N) (y : S16x16.Idx) : iblk m c 9 t y = (V m c main_v9 : S16x16.Idx → EReal) y := by
  show V m c main_v9 (((cfg0.win 9).blk t).view.emb y) = V m c main_v9 y
  refine congrArg (V m c main_v9) ?_
  funext a; apply Fin.ext
  obtain ⟨e0, e1⟩ := idx_9 t
  match a with
  | ⟨0, _⟩ => show win0_9.index t (0 : Fin 2) * 16 + 1 * (y 0).val = (y 0).val; omega
  | ⟨1, _⟩ => show win0_9.index t (1 : Fin 2) * 16 + 1 * (y 1).val = (y 1).val; omega

/-- Window 10's block at any point is the whole launched buffer `%10`. -/
theorem blk_10 (c : Dev nD) (t : Fin cfg0.N) (y : S16x1.Idx) : iblk m c 10 t y = (V m c main_v10 : S16x1.Idx → EReal) y := by
  show V m c main_v10 (((cfg0.win 10).blk t).view.emb y) = V m c main_v10 y
  refine congrArg (V m c main_v10) ?_
  funext a; apply Fin.ext
  obtain ⟨e0, e1⟩ := idx_10 t
  match a with
  | ⟨0, _⟩ => show win0_10.index t (0 : Fin 2) * 16 + 1 * (y 0).val = (y 0).val; omega
  | ⟨1, _⟩ => show win0_10.index t (1 : Fin 2) * 1 + 1 * (y 1).val = (y 1).val; omega

/-- Window 11's block at any point is the whole launched buffer `%11`. -/
theorem blk_11 (c : Dev nD) (t : Fin cfg0.N) (y : S16x16.Idx) : iblk m c 11 t y = (V m c main_v11 : S16x16.Idx → EReal) y := by
  show V m c main_v11 (((cfg0.win 11).blk t).view.emb y) = V m c main_v11 y
  refine congrArg (V m c main_v11) ?_
  funext a; apply Fin.ext
  obtain ⟨e0, e1⟩ := idx_11 t
  match a with
  | ⟨0, _⟩ => show win0_11.index t (0 : Fin 2) * 16 + 1 * (y 0).val = (y 0).val; omega
  | ⟨1, _⟩ => show win0_11.index t (1 : Fin 2) * 16 + 1 * (y 1).val = (y 1).val; omega

/-- Window 12's block at any point is the whole launched buffer `%12`. -/
theorem blk_12 (c : Dev nD) (t : Fin cfg0.N) (y : S16x1.Idx) : iblk m c 12 t y = (V m c main_v12 : S16x1.Idx → EReal) y := by
  show V m c main_v12 (((cfg0.win 12).blk t).view.emb y) = V m c main_v12 y
  refine congrArg (V m c main_v12) ?_
  funext a; apply Fin.ext
  obtain ⟨e0, e1⟩ := idx_12 t
  match a with
  | ⟨0, _⟩ => show win0_12.index t (0 : Fin 2) * 16 + 1 * (y 0).val = (y 0).val; omega
  | ⟨1, _⟩ => show win0_12.index t (1 : Fin 2) * 1 + 1 * (y 1).val = (y 1).val; omega

/-- Window 13's block at any point is the whole launched buffer `%13`. -/
theorem blk_13 (c : Dev nD) (t : Fin cfg0.N) (y : S16x16.Idx) : iblk m c 13 t y = (V m c main_v13 : S16x16.Idx → EReal) y := by
  show V m c main_v13 (((cfg0.win 13).blk t).view.emb y) = V m c main_v13 y
  refine congrArg (V m c main_v13) ?_
  funext a; apply Fin.ext
  obtain ⟨e0, e1⟩ := idx_13 t
  match a with
  | ⟨0, _⟩ => show win0_13.index t (0 : Fin 2) * 16 + 1 * (y 0).val = (y 0).val; omega
  | ⟨1, _⟩ => show win0_13.index t (1 : Fin 2) * 16 + 1 * (y 1).val = (y 1).val; omega

/-- Window 14's block at any point is the whole launched buffer `%14`. -/
theorem blk_14 (c : Dev nD) (t : Fin cfg0.N) (y : S16x1.Idx) : iblk m c 14 t y = (V m c main_v14 : S16x1.Idx → EReal) y := by
  show V m c main_v14 (((cfg0.win 14).blk t).view.emb y) = V m c main_v14 y
  refine congrArg (V m c main_v14) ?_
  funext a; apply Fin.ext
  obtain ⟨e0, e1⟩ := idx_14 t
  match a with
  | ⟨0, _⟩ => show win0_14.index t (0 : Fin 2) * 16 + 1 * (y 0).val = (y 0).val; omega
  | ⟨1, _⟩ => show win0_14.index t (1 : Fin 2) * 1 + 1 * (y 1).val = (y 1).val; omega

/-- Window 15's block at any point is the whole launched buffer `%15`. -/
theorem blk_15 (c : Dev nD) (t : Fin cfg0.N) (y : S16x16.Idx) : iblk m c 15 t y = (V m c main_v15 : S16x16.Idx → EReal) y := by
  show V m c main_v15 (((cfg0.win 15).blk t).view.emb y) = V m c main_v15 y
  refine congrArg (V m c main_v15) ?_
  funext a; apply Fin.ext
  obtain ⟨e0, e1⟩ := idx_15 t
  match a with
  | ⟨0, _⟩ => show win0_15.index t (0 : Fin 2) * 16 + 1 * (y 0).val = (y 0).val; omega
  | ⟨1, _⟩ => show win0_15.index t (1 : Fin 2) * 16 + 1 * (y 1).val = (y 1).val; omega

/-- Window 16's block at any point is the whole launched buffer `%16`. -/
theorem blk_16 (c : Dev nD) (t : Fin cfg0.N) (y : S16x1.Idx) : iblk m c 16 t y = (V m c main_v16 : S16x1.Idx → EReal) y := by
  show V m c main_v16 (((cfg0.win 16).blk t).view.emb y) = V m c main_v16 y
  refine congrArg (V m c main_v16) ?_
  funext a; apply Fin.ext
  obtain ⟨e0, e1⟩ := idx_16 t
  match a with
  | ⟨0, _⟩ => show win0_16.index t (0 : Fin 2) * 16 + 1 * (y 0).val = (y 0).val; omega
  | ⟨1, _⟩ => show win0_16.index t (1 : Fin 2) * 1 + 1 * (y 1).val = (y 1).val; omega

/-- Window 17's block at any point is the whole launched buffer `%17`. -/
theorem blk_17 (c : Dev nD) (t : Fin cfg0.N) (y : S1x16.Idx) : iblk m c 17 t y = (V m c main_v17 : S1x16.Idx → EReal) y := by
  show V m c main_v17 (((cfg0.win 17).blk t).view.emb y) = V m c main_v17 y
  refine congrArg (V m c main_v17) ?_
  funext a; apply Fin.ext
  obtain ⟨e0, e1⟩ := idx_17 t
  match a with
  | ⟨0, _⟩ => show win0_17.index t (0 : Fin 2) * 1 + 1 * (y 0).val = (y 0).val; omega
  | ⟨1, _⟩ => show win0_17.index t (1 : Fin 2) * 16 + 1 * (y 1).val = (y 1).val; omega

/-- Window 18's block at any point is the whole launched buffer `%18`. -/
theorem blk_18 (c : Dev nD) (t : Fin cfg0.N) (y : S1x1.Idx) : iblk m c 18 t y = (V m c main_v18 : S1x1.Idx → EReal) y := by
  show V m c main_v18 (((cfg0.win 18).blk t).view.emb y) = V m c main_v18 y
  refine congrArg (V m c main_v18) ?_
  funext a; apply Fin.ext
  obtain ⟨e0, e1⟩ := idx_18 t
  match a with
  | ⟨0, _⟩ => show win0_18.index t (0 : Fin 2) * 1 + 1 * (y 0).val = (y 0).val; omega
  | ⟨1, _⟩ => show win0_18.index t (1 : Fin 2) * 1 + 1 * (y 1).val = (y 1).val; omega

/-- Window 19's block at any point is the whole launched buffer `%19`. -/
theorem blk_19 (c : Dev nD) (t : Fin cfg0.N) (y : S1x1.Idx) : iblk m c 19 t y = (V m c main_v19 : S1x1.Idx → EReal) y := by
  show V m c main_v19 (((cfg0.win 19).blk t).view.emb y) = V m c main_v19 y
  refine congrArg (V m c main_v19) ?_
  funext a; apply Fin.ext
  obtain ⟨e0, e1⟩ := idx_19 t
  match a with
  | ⟨0, _⟩ => show win0_19.index t (0 : Fin 2) * 1 + 1 * (y 0).val = (y 0).val; omega
  | ⟨1, _⟩ => show win0_19.index t (1 : Fin 2) * 1 + 1 * (y 1).val = (y 1).val; omega

/-- A grid point is one of 32. -/
theorem point_lt (t : Fin cfg0.N) : t.val < 32 := lt_of_lt_of_eq t.isLt N_0

/-- Local column `q` of point `t`'s block is global column `t · 65536 + q`. -/
def col (t : Fin cfg0.N) (q : Fin 65536) : Fin 2097152 :=
  ⟨t.val * 65536 + q.val, by have := point_lt t; have := q.isLt; omega⟩

/-- Where local index `(u, q)` of window 0's block at point `t` sits in its array. -/
theorem emb_0 (t : Fin cfg0.N) (u : Fin 1) (q : Fin 65536) :
    ((cfg0.win 0).blk t).view.emb (ix2 u q) = ix2 (0 : Fin 1) (col t q) := by
  funext a; apply Fin.ext
  obtain ⟨e00, e01, e10, e11, e200, e201⟩ := idx_moving t
  match a with
  | ⟨0, _⟩ => show win0_0.index t (0 : Fin 2) * 1 + 1 * u.val = 0; have := u.isLt; omega
  | ⟨1, _⟩ => show win0_0.index t (1 : Fin 2) * 65536 + 1 * q.val = t.val * 65536 + q.val; omega

/-- Where local index `(u, q)` of window 1's block at point `t` sits in its array. -/
theorem emb_1 (t : Fin cfg0.N) (u : Fin 1) (q : Fin 65536) :
    ((cfg0.win 1).blk t).view.emb (ix2 u q) = ix2 (0 : Fin 1) (col t q) := by
  funext a; apply Fin.ext
  obtain ⟨e00, e01, e10, e11, e200, e201⟩ := idx_moving t
  match a with
  | ⟨0, _⟩ => show win0_1.index t (0 : Fin 2) * 1 + 1 * u.val = 0; have := u.isLt; omega
  | ⟨1, _⟩ => show win0_1.index t (1 : Fin 2) * 65536 + 1 * q.val = t.val * 65536 + q.val; omega

/-- Where local index `(u, q)` of window 20's block at point `t` sits in its array. -/
theorem emb_20 (t : Fin cfg0.N) (u : Fin 1) (q : Fin 65536) :
    ((cfg0.win 20).blk t).view.emb (ix2 u q) = ix2 (0 : Fin 1) (col t q) := by
  funext a; apply Fin.ext
  obtain ⟨e00, e01, e10, e11, e200, e201⟩ := idx_moving t
  match a with
  | ⟨0, _⟩ => show win0_20.index t (0 : Fin 2) * 1 + 1 * u.val = 0; have := u.isLt; omega
  | ⟨1, _⟩ => show win0_20.index t (1 : Fin 2) * 65536 + 1 * q.val = t.val * 65536 + q.val; omega

/-- Coordinate window 0's block at point `t`, local column `q`: the launched row `%0` at global column `col t q`. -/
theorem blk_0 (c : Dev nD) (t : Fin cfg0.N) (u : Fin 1) (q : Fin 65536) :
    iblk m c 0 t (ix2 u q) = (V m c main_v0 : S1x2097152.Idx → EReal) (ix2 (0 : Fin 1) (col t q)) := by
  show V m c main_v0 (((cfg0.win 0).blk t).view.emb (ix2 u q)) = V m c main_v0 (ix2 (0 : Fin 1) (col t q))
  rw [emb_0]

/-- Coordinate window 1's block at point `t`, local column `q`: the launched row `%1` at global column `col t q`. -/
theorem blk_1 (c : Dev nD) (t : Fin cfg0.N) (u : Fin 1) (q : Fin 65536) :
    iblk m c 1 t (ix2 u q) = (V m c main_v1 : S1x2097152.Idx → EReal) (ix2 (0 : Fin 1) (col t q)) := by
  show V m c main_v1 (((cfg0.win 1).blk t).view.emb (ix2 u q)) = V m c main_v1 (ix2 (0 : Fin 1) (col t q))
  rw [emb_1]

/-- The weights point `t` finds in its blocks are the weights of the argument arrays. -/
theorem weights_eq (c : Dev nD) (t : Fin cfg0.N) :
    Cert.KerPoint.ofBlocks (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) = weights m c :=
  Cert.KerPoint.ofBlocks_eq_ofArgs (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c)
    (fun j => (blk_2 m c t _).trans (V_v2_at m c j))
    (fun j => (blk_3 m c t _).trans (V_v3_at m c j))
    (fun j => (blk_4 m c t _).trans (V_v4_at m c j))
    (fun k j => (blk_5 m c t _).trans (V_v5_at m c k j))
    (fun j => (blk_6 m c t _).trans (V_v6_at m c j))
    (fun k j => (blk_7 m c t _).trans (V_v7_at m c k j))
    (fun j => (blk_8 m c t _).trans (V_v8_at m c j))
    (fun k j => (blk_9 m c t _).trans (V_v9_at m c k j))
    (fun j => (blk_10 m c t _).trans (V_v10_at m c j))
    (fun k j => (blk_11 m c t _).trans (V_v11_at m c k j))
    (fun j => (blk_12 m c t _).trans (V_v12_at m c j))
    (fun k j => (blk_13 m c t _).trans (V_v13_at m c k j))
    (fun j => (blk_14 m c t _).trans (V_v14_at m c j))
    (fun k j => (blk_15 m c t _).trans (V_v15_at m c k j))
    (fun j => (blk_16 m c t _).trans (V_v16_at m c j))
    (fun k => (blk_17 m c t _).trans (V_v17_at m c k))
    ((blk_18 m c t _).trans (V_v18_at m c))
    ((blk_19 m c t _).trans (V_v19_at m c))

/-! ## What each point writes back, and the whole array -/

theorem hz : (![0, 0] : Fin 2 → Nat) = fun _ => 0 := funext fun a => by fin_cases a <;> rfl

/-- What point `t` writes back is block `t` of `lanes`. -/
theorem flushed_eq (c : Dev nD) (t : Fin cfg0.N) :
    (dats m 0 c).flushed 20 t = ((cfg0.win 20).blk t).view.read (Elt Ideal) (lanes m c) := by
  show (cfg0.win 20).cut (grid0.coords t) ((dats m 0 c).after 20 t) = _
  rw [after0_20]
  unfold out0_20
  rw [View.canon_unit_zero hz]
  simp only [View.ld_unit_zero (S := S1x65536) hz, View.ld_unit_zero (S := S1x1) hz, View.ld_unit_zero (S := S16x1) hz,
    View.ld_unit_zero (S := S16x16) hz, View.ld_unit_zero (S := S1x16) hz]
  funext y
  obtain ⟨u, q, rfl⟩ : ∃ (u : Fin 1) (q : Fin 65536), y = ix2 u q := ⟨y 0, y 1, eq_ix2 y⟩
  refine (Cert.KerPoint.stored_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) u q).trans ?_
  show _ = lanes m c (((cfg0.win 20).blk t).view.emb (ix2 u q))
  rw [emb_20, weights_eq, blk_0, blk_1]
  rfl

/-- An index of the array is in point `t`'s block iff each coordinate is in the block's range on its axis. -/
theorem mem_blk (t : Fin cfg0.N) (i : S1x2097152.Idx) :
    i ∈ ((cfg0.win 20).blk t).view.set ↔ ∀ a : Fin 2, win0_20.index t a * S1x65536.size a ≤ (i a).val ∧ (i a).val < win0_20.index t a * S1x65536.size a + S1x65536.size a := by
  show i ∈ ((View.whole main_v20).slice (win0_20.rect t)).set ↔ _
  rw [View.set_slice_whole, Rect.mem_set_unit]
  exact Iff.rfl

/-- Every column is in the block of the point that owns it: point `column / 65536`. -/
theorem cover (i : S1x2097152.Idx) : ∃ t : Fin cfg0.N, (cfg0.win 20).flush t = true ∧ i ∈ ((cfg0.win 20).blk t).view.set := by
  have hi0 : (i 0).val < 1 := (i 0).isLt
  have hi1 : (i 1).val < 2097152 := (i 1).isLt
  have hN : cfg0.N = 32 := N_0
  have ht : (i 1).val / 65536 < cfg0.N := by rw [hN]; omega
  obtain ⟨_, _, _, _, e0, e1⟩ := idx_moving ⟨(i 1).val / 65536, ht⟩
  refine ⟨⟨(i 1).val / 65536, ht⟩, flush0_20 _, ?_⟩
  rw [mem_blk]
  intro a
  match a with
  | ⟨0, _⟩ =>
    show win0_20.index ⟨(i 1).val / 65536, ht⟩ (0 : Fin 2) * 1 ≤ (i 0).val ∧ (i 0).val < win0_20.index ⟨(i 1).val / 65536, ht⟩ (0 : Fin 2) * 1 + 1
    omega
  | ⟨1, _⟩ =>
    show win0_20.index ⟨(i 1).val / 65536, ht⟩ (1 : Fin 2) * 65536 ≤ (i 1).val ∧ (i 1).val < win0_20.index ⟨(i 1).val / 65536, ht⟩ (1 : Fin 2) * 65536 + 65536
    have e1' : win0_20.index ⟨(i 1).val / 65536, ht⟩ (1 : Fin 2) = (i 1).val / 65536 := e1
    omega

/-- The output array after the region. -/
theorem final (c : Dev nD) : (dats m 0 c).arrAt 20 cfg0.N = lanes m c :=
  (dats m 0 c).arrAt_eq_of_cover 20 (lanes m c) (fun t _ => flushed_eq m c t) cover

/-! ## The line after the region -/

/-- The program's result buffer after the last line. -/
theorem tail_eq (c : Dev nD) :
    Pipeline.afterTail₀ cfgs (dats m) 0 (V0 m) [hostOps1] c main_v21 = result m c := by
  unfold Pipeline.afterTail₀
  show StableHlo.after hostOps1 _ (Proc.devRef .tc main_v21) = _
  after_results
  have hA : Pipeline.withArrays (cfgs 0).spec c (V0 m c) (fun w => (dats m 0 c).arrAt w (cfgs 0).N) (Proc.devRef .tc main_v20)
      = lanes m c :=
    (Pipeline.withArrays_arr spec0 launch0.win.arr_inj c _ _ 20).trans (final m c)
  rw [hA]
  funext i
  show shapeCast S2097152x1 (lanes m c) shapeCasts_S1x2097152_S2097152x1 i = result m c i
  unfold lanes result
  rw [V_v0, V_v1]
  exact Cert.UnitLayout.shapeCast_combine (Cert.Mlp.net (weights m c)) (arg0 m c) (arg1 m c) shapeCasts_S2097152x1_S1x2097152
    shapeCasts_S1x2097152_S2097152x1 i

/-! ## The run, read -/

set_option maxHeartbeats 1260000 in
/-- Every weakly fair execution of the program terminates with the result buffer at `result` and the argument arrays as
    launched: the frame run, with the result read through the last line and the region's array. -/
theorem run : θ_run defs (onTc (τ := τ) (main (F := Ideal))) ⟨m, fun _ => 0, ρ⟩ (fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).2 main_v21 (Pipeline.mem_restRefs_of main_v21 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c))⟩) (run_main m ρ)

end Cert.KerArray

end
-- ==== Proof.lean ====
/-
  A nine-layer network applied to two million points, two ways.

  Each point has two real coordinates. The network is a first layer of sixteen `tanh` units, six hidden layers of sixteen
  `tanh` units each, and one linear output; every layer's sum is multiplied by one shared slope before its `tanh`
  (Proof/Mlp.lean). The reference keeps the points as the ROWS of an `[N, 16]` table and multiplies the table by each
  weight matrix from the right (Proof/RefPoint.lean: row `n` of its result is the network at point `n`). The kernel keeps
  the points as the COLUMNS of a `[16, 65536]` table, 32 blocks of columns one after the other, and multiplies each
  TRANSPOSED weight matrix into the table from the left (Proof/KernelPoint.lean: column `q` of a block's stored row is the
  network at that column's point; Proof/HostLayout.lean: the launched buffers are the arguments transposed and re-laid;
  Proof/KernelArray.lean: the blocks tile the output, and re-laying it as a column gives the network at row `n`).
  On the extended reals the two arrangements differ only in the order of the two factors of each product, and a product
  commutes; no sum is re-ordered and nothing is cancelled, so the precondition that the inputs are finite is never used.

  The three frames are the generated ones (the reference's is its generated run with the result dropped); the ideal pass
  rewrote nothing, so `preserves` is `True`.
-/
import proofs.«135203_j41609643164200_2_alg».proof.Defs
import proofs.«135203_j41609643164200_2_alg».proof.Proof.Gen.Kernel
import proofs.«135203_j41609643164200_2_alg».proof.Proof.Gen.Kernel.Skeleton
import proofs.«135203_j41609643164200_2_alg».proof.Proof.Gen.Kernel.Launch
import proofs.«135203_j41609643164200_2_alg».proof.Proof.Gen.Kernel.Points
import proofs.«135203_j41609643164200_2_alg».proof.Proof.Gen.Kernel.Frame
import proofs.«135203_j41609643164200_2_alg».proof.Proof.Gen.KernelIdeal
import proofs.«135203_j41609643164200_2_alg».proof.Proof.Gen.KernelIdeal.Skeleton
import proofs.«135203_j41609643164200_2_alg».proof.Proof.Gen.KernelIdeal.Launch
import proofs.«135203_j41609643164200_2_alg».proof.Proof.Gen.KernelIdeal.Points
import proofs.«135203_j41609643164200_2_alg».proof.Proof.Gen.KernelIdeal.Frame
import proofs.«135203_j41609643164200_2_alg».proof.Proof.Gen.ReferenceIdeal
import proofs.«135203_j41609643164200_2_alg».proof.Proof.Gen.ReferenceIdeal.Run
import proofs.«135203_j41609643164200_2_alg».proof.Proof.Gen.ReferenceIdeal.Read
import proofs.«135203_j41609643164200_2_alg».proof.Proof.Gen.Pre_finite_inputs
import proofs.«135203_j41609643164200_2_alg».proof.Proof.RefPoint
import proofs.«135203_j41609643164200_2_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at `Cert.KerArray.result`: at row `n`, the network with the argument arrays'
    weights at row `n` of the two coordinate arguments. -/
theorem algebraic : Cert.algebraic_KernelIdeal_ReferenceIdeal := by
  intro m ρ m' ρ' _ hagree
  refine ⟨fun c => Cert.KerArray.result m c, Cert.KerArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19⟩ := hagree c
  rw [a0, a1, a2, a3, a4, a5, a6, a7, a8, a9, a10, a11, a12, a13, a14, a15, a16, a17, a18, a19]
  funext i
  exact (congrFun (Cert.ReferenceIdeal.Read.val_main_v61_eq (F := Ideal) (Cert.HostLayout.arg0 m c) (Cert.HostLayout.arg1 m c) (Cert.HostLayout.arg2 m c) (Cert.HostLayout.arg3 m c) (Cert.HostLayout.arg4 m c) (Cert.HostLayout.arg5 m c) (Cert.HostLayout.arg6 m c) (Cert.HostLayout.arg7 m c) (Cert.HostLayout.arg8 m c) (Cert.HostLayout.arg9 m c) (Cert.HostLayout.arg10 m c) (Cert.HostLayout.arg11 m c) (Cert.HostLayout.arg12 m c) (Cert.HostLayout.arg13 m c) (Cert.HostLayout.arg14 m c) (Cert.HostLayout.arg15 m c) (Cert.HostLayout.arg16 m c) (Cert.HostLayout.arg17 m c) (Cert.HostLayout.arg18 m c) (Cert.HostLayout.arg19 m c)) i).trans
    (Cert.RefPoint.result_apply (Cert.HostLayout.arg0 m c) (Cert.HostLayout.arg1 m c) (Cert.HostLayout.arg2 m c) (Cert.HostLayout.arg3 m c) (Cert.HostLayout.arg4 m c) (Cert.HostLayout.arg5 m c) (Cert.HostLayout.arg6 m c) (Cert.HostLayout.arg7 m c) (Cert.HostLayout.arg8 m c) (Cert.HostLayout.arg9 m c) (Cert.HostLayout.arg10 m c) (Cert.HostLayout.arg11 m c) (Cert.HostLayout.arg12 m c) (Cert.HostLayout.arg13 m c) (Cert.HostLayout.arg14 m c) (Cert.HostLayout.arg15 m c) (Cert.HostLayout.arg16 m c) (Cert.HostLayout.arg17 m c) (Cert.HostLayout.arg18 m c) (Cert.HostLayout.arg19 m c) i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
